-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg20 : FVec F S256 .f32) (main_arg21 : FVec F S256x10 .f32) (main_arg22 : FVec F S10 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x10 .f32 := Host.absf main_arg21
  let main_cst_36 : FVec F S_ .f32 := constant S_ .f32 0x7F800000#32
  let main_v95 : FVec F S256x10 .f32 := broadcastInDim S256x10 ![] bcast_S_S256x10 main_cst_36
  let main_v96 : IVec S256x10 1 := cmpf .olt main_v94 main_v95
  let main_c_37 : IVec S_ 1 := constantI S_ 1 1#1
  let main_v97 : IVec S_ 1 := (fun x v => Host.reduce IntOp.andi x v reducesTo_S256x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg16 : FVec F S256x256 .f32) (main_arg17 : FVec F S256 .f32) (main_arg18 : FVec F S256x256 .f32) (main_arg19 : FVec F S256x256 .f32) (main_arg20 : FVec F S256 .f32) (main_arg21 : FVec F S256x10 .f32) (main_arg22 : FVec F S10 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x10 .f32) (main_arg22 : FVec F S10 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x10 .f32) (main_arg22 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x10 .f32) (main_arg22 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S800000 .f32) (main_arg4 : FVec F S128x256 .f32) (main_arg5 : FVec F S256 .f32) (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x10 .f32) (main_arg22 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S1x10 : Shape := ⟨2, ![1, 10]⟩
abbrev S256x1 : Shape := ⟨2, ![256, 1]⟩

abbrev nBuf : Space → Nat
  | .hbm => 124
  | .vmem => 51
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x10, .f32⟩
  | .hbm, ⟨22, _⟩ => ⟨S10, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S800000x1, .f32⟩
  | .hbm, ⟨55, _⟩ => ⟨S800000x256, .f32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S800000x1, .f32⟩
  | .hbm, ⟨73, _⟩ => ⟨S800000x256, .f32⟩
  | .hbm, ⟨74, _⟩ => ⟨S800000x256, .f32⟩
  | .hbm, ⟨75, _⟩ => ⟨S_, .f32⟩
  | .hbm, ⟨76, _⟩ => ⟨S50000x256, .f32⟩
  | .hbm, ⟨77, _⟩ => ⟨S800000x1, .i32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x256, .f32⟩
  | .hbm, ⟨90, _⟩ => ⟨S800000x1, .f32⟩
  | .hbm, ⟨91, _⟩ => ⟨S800000x256, .f32⟩
  | .hbm, ⟨92, _⟩ => ⟨S800000x256, .f32⟩
  | .hbm, ⟨93, _⟩ => ⟨S_, .f32⟩
  | .hbm, ⟨94, _⟩ => ⟨S50000x256, .f32⟩
  | .hbm, ⟨95, _⟩ => ⟨S800000x1, .i32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x256, .f32⟩
  | .hbm, ⟨108, _⟩ => ⟨S800000x1, .f32⟩
  | .hbm, ⟨109, _⟩ => ⟨S800000x256, .f32⟩
  | .hbm, ⟨110, _⟩ => ⟨S800000x256, .f32⟩
  | .hbm, ⟨111, _⟩ => ⟨S_, .f32⟩
  | .hbm, ⟨112, _⟩ => ⟨S50000x256, .f32⟩
  | .hbm, ⟨113, _⟩ => ⟨S800000x1, .i32⟩
  | .hbm, ⟨114, _⟩ => ⟨S50000x256, .f32⟩
  | .hbm, ⟨115, _⟩ => ⟨S1x256, .f32⟩
  | .hbm, ⟨116, _⟩ => ⟨S50000x256, .f32⟩
  | .hbm, ⟨117, _⟩ => ⟨S_, .f32⟩
  | .hbm, ⟨118, _⟩ => ⟨S256x256, .f32⟩
  | .hbm, ⟨119, _⟩ => ⟨S50000x1, .i32⟩
  | .hbm, ⟨120, _⟩ => ⟨S256x256, .f32⟩
  | .hbm, ⟨121, _⟩ => ⟨S1x256, .f32⟩
  | .hbm, ⟨122, _⟩ => ⟨S1x10, .f32⟩
  | .hbm, ⟨123, _⟩ => ⟨S256x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S2000x256, .f32⟩
  | .local _ .vmem, ⟨44, _⟩ => ⟨S2000x256, .f32⟩
  | .local _ .vmem, ⟨45, _⟩ => ⟨S256x256, .f32⟩
  | .local _ .vmem, ⟨46, _⟩ => ⟨S256x256, .f32⟩
  | .local _ .vmem, ⟨47, _⟩ => ⟨S1x256, .f32⟩
  | .local _ .vmem, ⟨48, _⟩ => ⟨S256x10, .f32⟩
  | .local _ .vmem, ⟨49, _⟩ => ⟨S1x10, .f32⟩
  | .local _ .vmem, ⟨50, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_7 : Ref sig .tc := ⟨.hbm, 81, rfl⟩
abbrev main_v49 : Ref sig .tc := ⟨.hbm, 82, rfl⟩
abbrev main_v50 : Ref sig .tc := ⟨.hbm, 83, rfl⟩
abbrev main_c_8 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_10 : Ref sig .tc := ⟨.hbm, 99, rfl⟩
abbrev main_v64 : Ref sig .tc := ⟨.hbm, 100, rfl⟩
abbrev main_v65 : Ref sig .tc := ⟨.hbm, 101, rfl⟩
abbrev main_c_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S256x256 : S_.BroadcastsInDim S256x256 (![] : Fin 0 → Fin S256x256.rank)
  bcast_S50000_S50000x1_0 : S50000.BroadcastsInDim S50000x1 (![0] : Fin 1 → Fin S50000x1.rank)
  shapeCasts_S10_S1x10 : S10.ShapeCasts S1x10
  shapeCasts_S256x256_S256x256 : S256x256.ShapeCasts S256x256
  broadcasts_S1x256_S256x256 : S1x256.Broadcasts S256x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S256x256_S50000x1_S50000x256_1_0_0_1_wf : ScatterDims.WF S256x256 S50000x1 S50000x256 [1] [0] [0] 1
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x256.size a ≤ S256x256.size a
  hwx5_0 : ∀ i : grid5.Coords, EltTy.bits .f32 = 32 ∨ (Rect.block (s := S256x256) S256x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x10.size a ≤ S256x10.size a
  hwx5_3 : ∀ i : grid5.Coords, EltTy.bits .f32 = 32 ∨ (Rect.block (s := S256x10) S256x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x10.size a ≤ S256x10.size a
  hwx5_5 : ∀ i : grid5.Coords, EltTy.bits .f32 = 32 ∨ (Rect.block (s := S256x10) S256x10.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S256x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S256x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S256x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S1x10 : Shape := ⟨2, ![1, 10]⟩
abbrev S256x1 : Shape := ⟨2, ![256, 1]⟩

abbrev nBuf : Space → Nat
  | .hbm => 182
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000, .f32⟩
  | 4 => ⟨S128x256, .f32⟩
  | 5 => ⟨S256, .f32⟩
  | 6 => ⟨S128x256, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256x256, .f32⟩
  | 14 => ⟨S256, .f32⟩
  | 15 => ⟨S256x256, .f32⟩
  | 16 => ⟨S256x256, .f32⟩
  | 17 => ⟨S256, .f32⟩
  | 18 => ⟨S256x256, .f32⟩
  | 19 => ⟨S256x256, .f32⟩
  | 20 => ⟨S256, .f32⟩
  | 21 => ⟨S256x10, .f32⟩
  | 22 => ⟨S10, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x1, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S50000x256, .f32⟩
  | 44 => ⟨S1x256, .f32⟩
  | 45 => ⟨S50000x256, .f32⟩
  | 46 => ⟨S50000x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S800000x1, .f32⟩
  | 62 => ⟨S800000x256, .f32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .f32⟩
  | 86 => ⟨S800000x1, .f32⟩
  | 87 => ⟨S800000x256, .f32⟩
  | 88 => ⟨S800000x256, .f32⟩
  | 89 => ⟨S_, .f32⟩
  | 90 => ⟨S50000x256, .f32⟩
  | 91 => ⟨S800000x1, .i32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S800000x1, .f32⟩
  | 112 => ⟨S800000x256, .f32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x256, .f32⟩
  | 8 => ⟨S800000x1, .f32⟩
  | 9 => ⟨S800000x256, .f32⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S_, .f32⟩
  | 25 => ⟨S256x256, .f32⟩
  | 26 => ⟨S50000x1, .i32⟩
  | 27 => ⟨S256x256, .f32⟩
  | 28 => ⟨S256x256, .f32⟩
  | 29 => ⟨S1x256, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x10, .f32⟩
  | 36 => ⟨S1x10, .f32⟩
  | 37 => ⟨S256x10, .f32⟩
  | 38 => ⟨S256x10, .f32⟩
  | 39 => ⟨S_, .f32⟩
  | 40 => ⟨S256, .f32⟩
  | 41 => ⟨S_, .f32⟩
  | 42 => ⟨S256, .f32⟩
  | 43 => ⟨S256, .f32⟩
  | 44 => ⟨S256x1, .f32⟩
  | 45 => ⟨S256x10, .f32⟩
  | 46 => ⟨S256x10, .f32⟩
  | 47 => ⟨S256x10, .f32⟩
  | 48 => ⟨S_, .f32⟩
  | 49 => ⟨S256, .f32⟩
  | 50 => ⟨S256x1, .f32⟩
  | 51 => ⟨S256x1, .f32⟩
  | 52 => ⟨S256x10, .f32⟩
  | 53 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_c_1 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call1_cst : Ref sig .tc := ⟨.hbm, 74, rfl⟩
abbrev main_call1_v0 : Ref sig .tc := ⟨.hbm, 75, rfl⟩
abbrev main_v43 : Ref sig .tc := ⟨.hbm, 76, rfl⟩
abbrev main_c_4 : Ref sig .tc := ⟨.hbm, 77, rfl⟩
abbrev main_v44 : Ref sig .tc := ⟨.hbm, 78, rfl⟩
abbrev main_v45 : Ref sig .tc := ⟨.hbm, 79, rfl⟩
abbrev main_c_5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_c_7 : Ref sig .tc := ⟨.hbm, 102, rfl⟩
abbrev main_v64 : Ref sig .tc := ⟨.hbm, 103, rfl⟩
abbrev main_v65 : Ref sig .tc := ⟨.hbm, 104, rfl⟩
abbrev main_c_8 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call3_cst : Ref sig .tc := ⟨.hbm, 124, rfl⟩
abbrev main_call3_v0 : Ref sig .tc := ⟨.hbm, 125, rfl⟩
abbrev main_v83 : Ref sig .tc := ⟨.hbm, 126, rfl⟩
abbrev main_c_10 : Ref sig .tc := ⟨.hbm, 127, rfl⟩
abbrev main_v84 : Ref sig .tc := ⟨.hbm, 128, rfl⟩
abbrev main_v85 : Ref sig .tc := ⟨.hbm, 129, rfl⟩
abbrev main_c_11 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_12 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call4_cst : Ref sig .tc := ⟨.hbm, 149, rfl⟩
abbrev main_call4_v0 : Ref sig .tc := ⟨.hbm, 150, rfl⟩
abbrev main_v103 : Ref sig .tc := ⟨.hbm, 151, rfl⟩
abbrev main_cst_13 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call5_cst : Ref sig .tc := ⟨.hbm, 160, rfl⟩
abbrev main_call5_v0 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call6_cst : Ref sig .tc := ⟨.hbm, 167, rfl⟩
abbrev main_call6_v0 : Ref sig .tc := ⟨.hbm, 168, rfl⟩
abbrev main_call6_cst_0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_cst_1 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_v116 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S_S256x256 : S_.BroadcastsInDim S256x256 (![] : Fin 0 → Fin S256x256.rank)
  bcast_S50000_S50000x1_0 : S50000.BroadcastsInDim S50000x1 (![0] : Fin 1 → Fin S50000x1.rank)
  bcast_S1x256_S256x256_0_1 : S1x256.BroadcastsInDim S256x256 (![0, 1] : Fin 2 → Fin S256x256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

class Facts : Prop extends Facts₀ where

variable [Facts]
-- ==== Proof.KernelRun.lean ====
/-
  The idealized kernel's run with every buffer of the final state named.

  @main of the kernel program is twelve segments: six stretches of host operations (the edge-index
  normalisation, the gather of source rows, the weighting by the edge weights, the scatter-add into
  destination rows, the reshapes of the biases) alternating with six pallas_call regions (five graph
  convolution layers and the classifier head). The frame certificate folds the buffer contents through
  these segments: `Gen.W0` is the launch memory, an odd `Gen.W(2k+1)` is `Gen.W(2k)` after the k-th host
  stretch, an even `Gen.W(2k+2)` is `Gen.W(2k+1)` with region k's arrays at what its write-backs leave.
  Here the same launch is read once more with a stronger conclusion: every weakly fair execution
  terminates, and in its final state EVERY unscoped buffer holds `Gen.W12`, the last fold.
-/
import proofs.«133640_j8100308320579_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and its final memory
    holds, at every unscoped buffer of every core, the contents the fold through the twelve segments
    computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Whole

end
-- ==== Proof.Carry.lean ====
/-
  Buffers no segment writes, carried through the fold.

  The weights, the biases, the edge weights and the batch vector are arguments of @main that no host operation
  and no region writes before the layer that consumes them; the source and destination node of every edge are
  computed once, by the first stretch of host operations, and read again by each later stretch. Each such
  buffer therefore holds, at every boundary of the fold up to its use, what it held at launch (or, for the two
  edge-index vectors, what the first stretch computed from the launch contents).
-/
import proofs.«133640_j8100308320579_2_alg».proof.Proof.Gen.KernelIdeal.Frame
import Idealize.ShloMosaic.Lib.StableHlo.Run

noncomputable section

namespace Cert.KernelIdeal.Whole

open Cert.KernelIdeal Cert.KernelIdeal.Gen
open Idealize.ShloMosaic Idealize.ShloMosaic.TcCoe Idealize.ShloMosaic.StableHlo Idealize.SL.Sem

variable {F : FTy → Type} [FloatOps F]

/-! ## A stretch of host operations leaves every buffer it does not write -/
theorem keep0_arg0 (W : Valuation τ sig (Elt F)) :
    StableHlo.after (hostOps0 (F := F)) W (Proc.devRef .tc main_arg0) = W (Proc.devRef .tc main_arg0) := by after_results
theorem keep0_arg4 (W : Valuation τ sig (Elt F)) :
    StableHlo.after (hostOps0 (F := F)) W (Proc.devRef .tc main_arg4) = W (Proc.devRef .tc main_arg4) := by after_results
theorem keep0_arg6 (W : Valuation τ sig (Elt F)) :
    StableHlo.after (hostOps0 (F := F)) W (Proc.devRef .tc main_arg6) = W (Proc.devRef .tc main_arg6) := by after_results
theorem keep0_arg3 (W : Valuation τ sig (Elt F)) :
    StableHlo.after (hostOps0 (F := F)) W (Proc.devRef .tc main_arg3) = W (Proc.devRef .tc main_arg3) := by after_results
theorem keep0_arg7 (W : Valuation τ sig (Elt F)) :
    StableHlo.after (hostOps0 (F := F)) W (Proc.devRef .tc main_arg7) = W (Proc.devRef .tc main_arg7) := by after_results
theorem keep0_arg8 (W : Valuation τ sig (Elt F)) :
    StableHlo.after (hostOps0 (F := F)) W (Proc.devRef .tc main_arg8) = W (Proc.devRef .tc main_arg8) := by after_results
theorem keep0_arg9 (W : Valuation τ sig (Elt F)) :
    StableHlo.after (hostOps0 (F := F)) W (Proc.devRef .tc main_arg9) = W (Proc.devRef .tc main_arg9) := by after_results
theorem keep0_arg10 (W : Valuation τ sig (Elt F)) :
    StableHlo.after (hostOps0 (F := F)) W (Proc.devRef .tc main_arg10) = W (Proc.devRef .tc main_arg10) := by after_results
theorem keep0_arg11 (W : Valuation τ sig (Elt F)) :
    StableHlo.after (hostOps0 (F := F)) W (Proc.devRef .tc main_arg11) = W (Proc.devRef .tc main_arg11) := by after_results
theorem keep0_arg12 (W : Valuation τ sig (Elt F)) :
    StableHlo.after (hostOps0 (F := F)) W (Proc.devRef .tc main_arg12) = W (Proc.devRef .tc main_arg12) := by after_results
theorem keep0_arg13 (W : Valuation τ sig (Elt F)) :
    StableHlo.after (hostOps0 (F := F)) W (Proc.devRef .tc main_arg13) = W (Proc.devRef .tc main_arg13) := by after_results
theorem keep0_arg14 (W : Valuation τ sig (Elt F)) :
    StableHlo.after (hostOps0 (F := F)) W (Proc.devRef .tc main_arg14) = W (Proc.devRef .tc main_arg14) := by after_results
theorem keep0_arg15 (W : Valuation τ sig (Elt F)) :
    StableHlo.after (hostOps0 (F := F)) W (Proc.devRef .tc main_arg15) = W (Proc.devRef .tc main_arg15) := by after_results
theorem keep0_arg16 (W : Valuation τ sig (Elt F)) :
    StableHlo.after (hostOps0 (F := F)) W (Proc.devRef .tc main_arg16) = W (Proc.devRef .tc main_arg16) := by after_results
theorem keep0_arg17 (W : Valuation τ sig (Elt F)) :
    StableHlo.after (hostOps0 (F := F)) W (Proc.devRef .tc main_arg17) = W (Proc.devRef .tc main_arg17) := by after_results
theorem keep0_arg18 (W : Valuation τ sig (Elt F)) :
    StableHlo.after (hostOps0 (F := F)) W (Proc.devRef .tc main_arg18) = W (Proc.devRef .tc main_arg18) := by after_results
theorem keep0_arg2 (W : Valuation τ sig (Elt F)) :
    StableHlo.after (hostOps0 (F := F)) W (Proc.devRef .tc main_arg2) = W (Proc.devRef .tc main_arg2) := by after_results
theorem keep0_arg19 (W : Valuation τ sig (Elt F)) :
    StableHlo.after (hostOps0 (F := F)) W (Proc.devRef .tc main_arg19) = W (Proc.devRef .tc main_arg19) := by after_results
theorem keep0_arg20 (W : Valuation τ sig (Elt F)) :
    StableHlo.after (hostOps0 (F := F)) W (Proc.devRef .tc main_arg20) = W (Proc.devRef .tc main_arg20) := by after_results
theorem keep0_arg21 (W : Valuation τ sig (Elt F)) :
    StableHlo.after (hostOps0 (F := F)) W (Proc.devRef .tc main_arg21) = W (Proc.devRef .tc main_arg21) := by after_results
theorem keep0_arg22 (W : Valuation τ sig (Elt F)) :
    StableHlo.after (hostOps0 (F := F)) W (Proc.devRef .tc main_arg22) = W (Proc.devRef .tc main_arg22) := by after_results
theorem keep1_arg3 (W : Valuation τ sig (Elt F)) :
    StableHlo.after (hostOps1 (F := F)) W (Proc.devRef .tc main_arg3) = W (Proc.devRef .tc main_arg3) := by after_results
theorem keep1_arg7 (W : Valuation τ sig (Elt F)) :
    StableHlo.after (hostOps1 (F := F)) W (Proc.devRef .tc main_arg7) = W (Proc.devRef .tc main_arg7) := by after_results
theorem keep1_arg9 (W : Valuation τ sig (Elt F)) :
    StableHlo.after (hostOps1 (F := F)) W (Proc.devRef .tc main_arg9) = W (Proc.devRef .tc main_arg9) := by after_results
theorem keep1_arg10 (W : Valuation τ sig (Elt F)) :
    StableHlo.after (hostOps1 (F := F)) W (Proc.devRef .tc main_arg10) = W (Proc.devRef .tc main_arg10) := by after_results
theorem keep1_arg11 (W : Valuation τ sig (Elt F)) :
    StableHlo.after (hostOps1 (F := F)) W (Proc.devRef .tc main_arg11) = W (Proc.devRef .tc main_arg11) := by after_results
theorem keep1_arg12 (W : Valuation τ sig (Elt F)) :
    StableHlo.after (hostOps1 (F := F)) W (Proc.devRef .tc main_arg12) = W (Proc.devRef .tc main_arg12) := by after_results
theorem keep1_arg13 (W : Valuation τ sig (Elt F)) :
    StableHlo.after (hostOps1 (F := F)) W (Proc.devRef .tc main_arg13) = W (Proc.devRef .tc main_arg13) := by after_results
theorem keep1_arg14 (W : Valuation τ sig (Elt F)) :
    StableHlo.after (hostOps1 (F := F)) W (Proc.devRef .tc main_arg14) = W (Proc.devRef .tc main_arg14) := by after_results
theorem keep1_arg15 (W : Valuation τ sig (Elt F)) :
    StableHlo.after (hostOps1 (F := F)) W (Proc.devRef .tc main_arg15) = W (Proc.devRef .tc main_arg15) := by after_results
theorem keep1_arg16 (W : Valuation τ sig (Elt F)) :
    StableHlo.after (hostOps1 (F := F)) W (Proc.devRef .tc main_arg16) = W (Proc.devRef .tc main_arg16) := by after_results
theorem keep1_arg17 (W : Valuation τ sig (Elt F)) :
    StableHlo.after (hostOps1 (F := F)) W (Proc.devRef .tc main_arg17) = W (Proc.devRef .tc main_arg17) := by after_results
theorem keep1_arg18 (W : Valuation τ sig (Elt F)) :
    StableHlo.after (hostOps1 (F := F)) W (Proc.devRef .tc main_arg18) = W (Proc.devRef .tc main_arg18) := by after_results
theorem keep1_arg2 (W : Valuation τ sig (Elt F)) :
    StableHlo.after (hostOps1 (F := F)) W (Proc.devRef .tc main_arg2) = W (Proc.devRef .tc main_arg2) := by after_results
theorem keep1_arg19 (W : Valuation τ sig (Elt F)) :
    StableHlo.after (hostOps1 (F := F)) W (Proc.devRef .tc main_arg19) = W (Proc.devRef .tc main_arg19) := by after_results
theorem keep1_arg20 (W : Valuation τ sig (Elt F)) :
    StableHlo.after (hostOps1 (F := F)) W (Proc.devRef .tc main_arg20) = W (Proc.devRef .tc main_arg20) := by after_results
theorem keep1_arg21 (W : Valuation τ sig (Elt F)) :
    StableHlo.after (hostOps1 (F := F)) W (Proc.devRef .tc main_arg21) = W (Proc.devRef .tc main_arg21) := by after_results
theorem keep1_arg22 (W : Valuation τ sig (Elt F)) :
    StableHlo.after (hostOps1 (F := F)) W (Proc.devRef .tc main_arg22) = W (Proc.devRef .tc main_arg22) := by after_results
theorem keep1_v1 (W : Valuation τ sig (Elt F)) :
    StableHlo.after (hostOps1 (F := F)) W (Proc.devRef .tc main_v1) = W (Proc.devRef .tc main_v1) := by after_results
theorem keep1_v3 (W : Valuation τ sig (Elt F)) :
    StableHlo.after (hostOps1 (F := F)) W (Proc.devRef .tc main_v3) = W (Proc.devRef .tc main_v3) := by after_results
theorem keep1_v18 (W : Valuation τ sig (Elt F)) :
    StableHlo.after (hostOps1 (F := F)) W (Proc.devRef .tc main_v18) = W (Proc.devRef .tc main_v18) := by after_results
theorem keep2_arg3 (W : Valuation τ sig (Elt F)) :
    StableHlo.after (hostOps2 (F := F)) W (Proc.devRef .tc main_arg3) = W (Proc.devRef .tc main_arg3) := by after_results
theorem keep2_arg10 (W : Valuation τ sig (Elt F)) :
    StableHlo.after (hostOps2 (F := F)) W (Proc.devRef .tc main_arg10) = W (Proc.devRef .tc main_arg10) := by after_results
theorem keep2_arg12 (W : Valuation τ sig (Elt F)) :
    StableHlo.after (hostOps2 (F := F)) W (Proc.devRef .tc main_arg12) = W (Proc.devRef .tc main_arg12) := by after_results
theorem keep2_arg13 (W : Valuation τ sig (Elt F)) :
    StableHlo.after (hostOps2 (F := F)) W (Proc.devRef .tc main_arg13) = W (Proc.devRef .tc main_arg13) := by after_results
theorem keep2_arg14 (W : Valuation τ sig (Elt F)) :
    StableHlo.after (hostOps2 (F := F)) W (Proc.devRef .tc main_arg14) = W (Proc.devRef .tc main_arg14) := by after_results
theorem keep2_arg15 (W : Valuation τ sig (Elt F)) :
    StableHlo.after (hostOps2 (F := F)) W (Proc.devRef .tc main_arg15) = W (Proc.devRef .tc main_arg15) := by after_results
theorem keep2_arg16 (W : Valuation τ sig (Elt F)) :
    StableHlo.after (hostOps2 (F := F)) W (Proc.devRef .tc main_arg16) = W (Proc.devRef .tc main_arg16) := by after_results
theorem keep2_arg17 (W : Valuation τ sig (Elt F)) :
    StableHlo.after (hostOps2 (F := F)) W (Proc.devRef .tc main_arg17) = W (Proc.devRef .tc main_arg17) := by after_results
theorem keep2_arg18 (W : Valuation τ sig (Elt F)) :
    StableHlo.after (hostOps2 (F := F)) W (Proc.devRef .tc main_arg18) = W (Proc.devRef .tc main_arg18) := by after_results
theorem keep2_arg2 (W : Valuation τ sig (Elt F)) :
    StableHlo.after (hostOps2 (F := F)) W (Proc.devRef .tc main_arg2) = W (Proc.devRef .tc main_arg2) := by after_results
theorem keep2_arg19 (W : Valuation τ sig (Elt F)) :
    StableHlo.after (hostOps2 (F := F)) W (Proc.devRef .tc main_arg19) = W (Proc.devRef .tc main_arg19) := by after_results
theorem keep2_arg20 (W : Valuation τ sig (Elt F)) :
    StableHlo.after (hostOps2 (F := F)) W (Proc.devRef .tc main_arg20) = W (Proc.devRef .tc main_arg20) := by after_results
theorem keep2_arg21 (W : Valuation τ sig (Elt F)) :
    StableHlo.after (hostOps2 (F := F)) W (Proc.devRef .tc main_arg21) = W (Proc.devRef .tc main_arg21) := by after_results
theorem keep2_arg22 (W : Valuation τ sig (Elt F)) :
    StableHlo.after (hostOps2 (F := F)) W (Proc.devRef .tc main_arg22) = W (Proc.devRef .tc main_arg22) := by after_results
theorem keep2_v1 (W : Valuation τ sig (Elt F)) :
    StableHlo.after (hostOps2 (F := F)) W (Proc.devRef .tc main_v1) = W (Proc.devRef .tc main_v1) := by after_results
theorem keep2_v3 (W : Valuation τ sig (Elt F)) :
    StableHlo.after (hostOps2 (F := F)) W (Proc.devRef .tc main_v3) = W (Proc.devRef .tc main_v3) := by after_results
theorem keep2_v33 (W : Valuation τ sig (Elt F)) :
    StableHlo.after (hostOps2 (F := F)) W (Proc.devRef .tc main_v33) = W (Proc.devRef .tc main_v33) := by after_results
theorem keep3_arg3 (W : Valuation τ sig (Elt F)) :
    StableHlo.after (hostOps3 (F := F)) W (Proc.devRef .tc main_arg3) = W (Proc.devRef .tc main_arg3) := by after_results
theorem keep3_arg13 (W : Valuation τ sig (Elt F)) :
    StableHlo.after (hostOps3 (F := F)) W (Proc.devRef .tc main_arg13) = W (Proc.devRef .tc main_arg13) := by after_results
theorem keep3_arg15 (W : Valuation τ sig (Elt F)) :
    StableHlo.after (hostOps3 (F := F)) W (Proc.devRef .tc main_arg15) = W (Proc.devRef .tc main_arg15) := by after_results
theorem keep3_arg16 (W : Valuation τ sig (Elt F)) :
    StableHlo.after (hostOps3 (F := F)) W (Proc.devRef .tc main_arg16) = W (Proc.devRef .tc main_arg16) := by after_results
theorem keep3_arg17 (W : Valuation τ sig (Elt F)) :
    StableHlo.after (hostOps3 (F := F)) W (Proc.devRef .tc main_arg17) = W (Proc.devRef .tc main_arg17) := by after_results
theorem keep3_arg18 (W : Valuation τ sig (Elt F)) :
    StableHlo.after (hostOps3 (F := F)) W (Proc.devRef .tc main_arg18) = W (Proc.devRef .tc main_arg18) := by after_results
theorem keep3_arg2 (W : Valuation τ sig (Elt F)) :
    StableHlo.after (hostOps3 (F := F)) W (Proc.devRef .tc main_arg2) = W (Proc.devRef .tc main_arg2) := by after_results
theorem keep3_arg19 (W : Valuation τ sig (Elt F)) :
    StableHlo.after (hostOps3 (F := F)) W (Proc.devRef .tc main_arg19) = W (Proc.devRef .tc main_arg19) := by after_results
theorem keep3_arg20 (W : Valuation τ sig (Elt F)) :
    StableHlo.after (hostOps3 (F := F)) W (Proc.devRef .tc main_arg20) = W (Proc.devRef .tc main_arg20) := by after_results
theorem keep3_arg21 (W : Valuation τ sig (Elt F)) :
    StableHlo.after (hostOps3 (F := F)) W (Proc.devRef .tc main_arg21) = W (Proc.devRef .tc main_arg21) := by after_results
theorem keep3_arg22 (W : Valuation τ sig (Elt F)) :
    StableHlo.after (hostOps3 (F := F)) W (Proc.devRef .tc main_arg22) = W (Proc.devRef .tc main_arg22) := by after_results
theorem keep3_v1 (W : Valuation τ sig (Elt F)) :
    StableHlo.after (hostOps3 (F := F)) W (Proc.devRef .tc main_v1) = W (Proc.devRef .tc main_v1) := by after_results
theorem keep3_v3 (W : Valuation τ sig (Elt F)) :
    StableHlo.after (hostOps3 (F := F)) W (Proc.devRef .tc main_v3) = W (Proc.devRef .tc main_v3) := by after_results
theorem keep3_v48 (W : Valuation τ sig (Elt F)) :
    StableHlo.after (hostOps3 (F := F)) W (Proc.devRef .tc main_v48) = W (Proc.devRef .tc main_v48) := by after_results
theorem keep4_arg16 (W : Valuation τ sig (Elt F)) :
    StableHlo.after (hostOps4 (F := F)) W (Proc.devRef .tc main_arg16) = W (Proc.devRef .tc main_arg16) := by after_results
theorem keep4_arg18 (W : Valuation τ sig (Elt F)) :
    StableHlo.after (hostOps4 (F := F)) W (Proc.devRef .tc main_arg18) = W (Proc.devRef .tc main_arg18) := by after_results
theorem keep4_arg2 (W : Valuation τ sig (Elt F)) :
    StableHlo.after (hostOps4 (F := F)) W (Proc.devRef .tc main_arg2) = W (Proc.devRef .tc main_arg2) := by after_results
theorem keep4_arg19 (W : Valuation τ sig (Elt F)) :
    StableHlo.after (hostOps4 (F := F)) W (Proc.devRef .tc main_arg19) = W (Proc.devRef .tc main_arg19) := by after_results
theorem keep4_arg20 (W : Valuation τ sig (Elt F)) :
    StableHlo.after (hostOps4 (F := F)) W (Proc.devRef .tc main_arg20) = W (Proc.devRef .tc main_arg20) := by after_results
theorem keep4_arg21 (W : Valuation τ sig (Elt F)) :
    StableHlo.after (hostOps4 (F := F)) W (Proc.devRef .tc main_arg21) = W (Proc.devRef .tc main_arg21) := by after_results
theorem keep4_arg22 (W : Valuation τ sig (Elt F)) :
    StableHlo.after (hostOps4 (F := F)) W (Proc.devRef .tc main_arg22) = W (Proc.devRef .tc main_arg22) := by after_results
theorem keep4_v63 (W : Valuation τ sig (Elt F)) :
    StableHlo.after (hostOps4 (F := F)) W (Proc.devRef .tc main_v63) = W (Proc.devRef .tc main_v63) := by after_results
theorem keep5_arg19 (W : Valuation τ sig (Elt F)) :
    StableHlo.after (hostOps5 (F := F)) W (Proc.devRef .tc main_arg19) = W (Proc.devRef .tc main_arg19) := by after_results
theorem keep5_arg21 (W : Valuation τ sig (Elt F)) :
    StableHlo.after (hostOps5 (F := F)) W (Proc.devRef .tc main_arg21) = W (Proc.devRef .tc main_arg21) := by after_results

variable (m : (ℓ : Loc nD τ sig) → Buf (Elt F) ℓ) (ρ : Dev nD → PrngReg)

/-! ## The arguments, at each boundary up to their use -/
theorem at1_arg0 (c : Dev nD) : W1 m ρ c (Proc.devRef .tc main_arg0) = m ((c : Thread nD τ).loc main_arg0) :=
  (keep0_arg0 (W0 m ρ c)).trans (rfl)
theorem at1_arg4 (c : Dev nD) : W1 m ρ c (Proc.devRef .tc main_arg4) = m ((c : Thread nD τ).loc main_arg4) :=
  (keep0_arg4 (W0 m ρ c)).trans (rfl)
theorem at1_arg6 (c : Dev nD) : W1 m ρ c (Proc.devRef .tc main_arg6) = m ((c : Thread nD τ).loc main_arg6) :=
  (keep0_arg6 (W0 m ρ c)).trans (rfl)
theorem at1_arg3 (c : Dev nD) : W1 m ρ c (Proc.devRef .tc main_arg3) = m ((c : Thread nD τ).loc main_arg3) :=
  (keep0_arg3 (W0 m ρ c)).trans (rfl)
theorem at2_arg3 (c : Dev nD) : W2 m ρ c (Proc.devRef .tc main_arg3) = m ((c : Thread nD τ).loc main_arg3) :=
  (W2_of_ne m ρ c main_arg3 (by decide)).trans (at1_arg3 m ρ c)
theorem at3_arg3 (c : Dev nD) : W3 m ρ c (Proc.devRef .tc main_arg3) = m ((c : Thread nD τ).loc main_arg3) :=
  (keep1_arg3 (W2 m ρ c)).trans (at2_arg3 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at5_arg3 (c : Dev nD) : W5 m ρ c (Proc.devRef .tc main_arg3) = m ((c : Thread nD τ).loc main_arg3) :=
  (keep2_arg3 (W4 m ρ c)).trans (at4_arg3 m ρ c)
theorem at6_arg3 (c : Dev nD) : W6 m ρ c (Proc.devRef .tc main_arg3) = m ((c : Thread nD τ).loc main_arg3) :=
  (W6_of_ne m ρ c main_arg3 (by decide)).trans (at5_arg3 m ρ c)
theorem at7_arg3 (c : Dev nD) : W7 m ρ c (Proc.devRef .tc main_arg3) = m ((c : Thread nD τ).loc main_arg3) :=
  (keep3_arg3 (W6 m ρ c)).trans (at6_arg3 m ρ c)
theorem at8_arg3 (c : Dev nD) : W8 m ρ c (Proc.devRef .tc main_arg3) = m ((c : Thread nD τ).loc main_arg3) :=
  (W8_of_ne m ρ c main_arg3 (by decide)).trans (at7_arg3 m ρ c)
theorem at1_arg7 (c : Dev nD) : W1 m ρ c (Proc.devRef .tc main_arg7) = m ((c : Thread nD τ).loc main_arg7) :=
  (keep0_arg7 (W0 m ρ c)).trans (rfl)
theorem at2_arg7 (c : Dev nD) : W2 m ρ c (Proc.devRef .tc main_arg7) = m ((c : Thread nD τ).loc main_arg7) :=
  (W2_of_ne m ρ c main_arg7 (by decide)).trans (at1_arg7 m ρ c)
theorem at3_arg7 (c : Dev nD) : W3 m ρ c (Proc.devRef .tc main_arg7) = m ((c : Thread nD τ).loc main_arg7) :=
  (keep1_arg7 (W2 m ρ c)).trans (at2_arg7 m ρ c)
theorem at1_arg8 (c : Dev nD) : W1 m ρ c (Proc.devRef .tc main_arg8) = m ((c : Thread nD τ).loc main_arg8) :=
  (keep0_arg8 (W0 m ρ c)).trans (rfl)
theorem at2_arg8 (c : Dev nD) : W2 m ρ c (Proc.devRef .tc main_arg8) = m ((c : Thread nD τ).loc main_arg8) :=
  (W2_of_ne m ρ c main_arg8 (by decide)).trans (at1_arg8 m ρ c)
theorem at1_arg9 (c : Dev nD) : W1 m ρ c (Proc.devRef .tc main_arg9) = m ((c : Thread nD τ).loc main_arg9) :=
  (keep0_arg9 (W0 m ρ c)).trans (rfl)
theorem at2_arg9 (c : Dev nD) : W2 m ρ c (Proc.devRef .tc main_arg9) = m ((c : Thread nD τ).loc main_arg9) :=
  (W2_of_ne m ρ c main_arg9 (by decide)).trans (at1_arg9 m ρ c)
theorem at3_arg9 (c : Dev nD) : W3 m ρ c (Proc.devRef .tc main_arg9) = m ((c : Thread nD τ).loc main_arg9) :=
  (keep1_arg9 (W2 m ρ c)).trans (at2_arg9 m ρ c)
theorem at1_arg10 (c : Dev nD) : W1 m ρ c (Proc.devRef .tc main_arg10) = m ((c : Thread nD τ).loc main_arg10) :=
  (keep0_arg10 (W0 m ρ c)).trans (rfl)
theorem at2_arg10 (c : Dev nD) : W2 m ρ c (Proc.devRef .tc main_arg10) = m ((c : Thread nD τ).loc main_arg10) :=
  (W2_of_ne m ρ c main_arg10 (by decide)).trans (at1_arg10 m ρ c)
theorem at3_arg10 (c : Dev nD) : W3 m ρ c (Proc.devRef .tc main_arg10) = m ((c : Thread nD τ).loc main_arg10) :=
  (keep1_arg10 (W2 m ρ c)).trans (at2_arg10 m ρ c)
theorem at4_arg10 (c : Dev nD) : W4 m ρ c (Proc.devRef .tc main_arg10) = m ((c : Thread nD τ).loc main_arg10) :=
  (W4_of_ne m ρ c main_arg10 (by decide)).trans (at3_arg10 m ρ c)
theorem at5_arg10 (c : Dev nD) : W5 m ρ c (Proc.devRef .tc main_arg10) = m ((c : Thread nD τ).loc main_arg10) :=
  (keep2_arg10 (W4 m ρ c)).trans (at4_arg10 m ρ c)
theorem at1_arg11 (c : Dev nD) : W1 m ρ c (Proc.devRef .tc main_arg11) = m ((c : Thread nD τ).loc main_arg11) :=
  (keep0_arg11 (W0 m ρ c)).trans (rfl)
theorem at2_arg11 (c : Dev nD) : W2 m ρ c (Proc.devRef .tc main_arg11) = m ((c : Thread nD τ).loc main_arg11) :=
  (W2_of_ne m ρ c main_arg11 (by decide)).trans (at1_arg11 m ρ c)
theorem at3_arg11 (c : Dev nD) : W3 m ρ c (Proc.devRef .tc main_arg11) = m ((c : Thread nD τ).loc main_arg11) :=
  (keep1_arg11 (W2 m ρ c)).trans (at2_arg11 m ρ c)
theorem at4_arg11 (c : Dev nD) : W4 m ρ c (Proc.devRef .tc main_arg11) = m ((c : Thread nD τ).loc main_arg11) :=
  (W4_of_ne m ρ c main_arg11 (by decide)).trans (at3_arg11 m ρ c)
theorem at1_arg12 (c : Dev nD) : W1 m ρ c (Proc.devRef .tc main_arg12) = m ((c : Thread nD τ).loc main_arg12) :=
  (keep0_arg12 (W0 m ρ c)).trans (rfl)
theorem at2_arg12 (c : Dev nD) : W2 m ρ c (Proc.devRef .tc main_arg12) = m ((c : Thread nD τ).loc main_arg12) :=
  (W2_of_ne m ρ c main_arg12 (by decide)).trans (at1_arg12 m ρ c)
theorem at3_arg12 (c : Dev nD) : W3 m ρ c (Proc.devRef .tc main_arg12) = m ((c : Thread nD τ).loc main_arg12) :=
  (keep1_arg12 (W2 m ρ c)).trans (at2_arg12 m ρ c)
theorem at4_arg12 (c : Dev nD) : W4 m ρ c (Proc.devRef .tc main_arg12) = m ((c : Thread nD τ).loc main_arg12) :=
  (W4_of_ne m ρ c main_arg12 (by decide)).trans (at3_arg12 m ρ c)
theorem at5_arg12 (c : Dev nD) : W5 m ρ c (Proc.devRef .tc main_arg12) = m ((c : Thread nD τ).loc main_arg12) :=
  (keep2_arg12 (W4 m ρ c)).trans (at4_arg12 m ρ c)
theorem at1_arg13 (c : Dev nD) : W1 m ρ c (Proc.devRef .tc main_arg13) = m ((c : Thread nD τ).loc main_arg13) :=
  (keep0_arg13 (W0 m ρ c)).trans (rfl)
theorem at2_arg13 (c : Dev nD) : W2 m ρ c (Proc.devRef .tc main_arg13) = m ((c : Thread nD τ).loc main_arg13) :=
  (W2_of_ne m ρ c main_arg13 (by decide)).trans (at1_arg13 m ρ c)
theorem at3_arg13 (c : Dev nD) : W3 m ρ c (Proc.devRef .tc main_arg13) = m ((c : Thread nD τ).loc main_arg13) :=
  (keep1_arg13 (W2 m ρ c)).trans (at2_arg13 m ρ c)
theorem at4_arg13 (c : Dev nD) : W4 m ρ c (Proc.devRef .tc main_arg13) = m ((c : Thread nD τ).loc main_arg13) :=
  (W4_of_ne m ρ c main_arg13 (by decide)).trans (at3_arg13 m ρ c)
theorem at5_arg13 (c : Dev nD) : W5 m ρ c (Proc.devRef .tc main_arg13) = m ((c : Thread nD τ).loc main_arg13) :=
  (keep2_arg13 (W4 m ρ c)).trans (at4_arg13 m ρ c)
theorem at6_arg13 (c : Dev nD) : W6 m ρ c (Proc.devRef .tc main_arg13) = m ((c : Thread nD τ).loc main_arg13) :=
  (W6_of_ne m ρ c main_arg13 (by decide)).trans (at5_arg13 m ρ c)
theorem at7_arg13 (c : Dev nD) : W7 m ρ c (Proc.devRef .tc main_arg13) = m ((c : Thread nD τ).loc main_arg13) :=
  (keep3_arg13 (W6 m ρ c)).trans (at6_arg13 m ρ c)
theorem at1_arg14 (c : Dev nD) : W1 m ρ c (Proc.devRef .tc main_arg14) = m ((c : Thread nD τ).loc main_arg14) :=
  (keep0_arg14 (W0 m ρ c)).trans (rfl)
theorem at2_arg14 (c : Dev nD) : W2 m ρ c (Proc.devRef .tc main_arg14) = m ((c : Thread nD τ).loc main_arg14) :=
  (W2_of_ne m ρ c main_arg14 (by decide)).trans (at1_arg14 m ρ c)
theorem at3_arg14 (c : Dev nD) : W3 m ρ c (Proc.devRef .tc main_arg14) = m ((c : Thread nD τ).loc main_arg14) :=
  (keep1_arg14 (W2 m ρ c)).trans (at2_arg14 m ρ c)
theorem at4_arg14 (c : Dev nD) : W4 m ρ c (Proc.devRef .tc main_arg14) = m ((c : Thread nD τ).loc main_arg14) :=
  (W4_of_ne m ρ c main_arg14 (by decide)).trans (at3_arg14 m ρ c)
theorem at5_arg14 (c : Dev nD) : W5 m ρ c (Proc.devRef .tc main_arg14) = m ((c : Thread nD τ).loc main_arg14) :=
  (keep2_arg14 (W4 m ρ c)).trans (at4_arg14 m ρ c)
theorem at6_arg14 (c : Dev nD) : W6 m ρ c (Proc.devRef .tc main_arg14) = m ((c : Thread nD τ).loc main_arg14) :=
  (W6_of_ne m ρ c main_arg14 (by decide)).trans (at5_arg14 m ρ c)
theorem at1_arg15 (c : Dev nD) : W1 m ρ c (Proc.devRef .tc main_arg15) = m ((c : Thread nD τ).loc main_arg15) :=
  (keep0_arg15 (W0 m ρ c)).trans (rfl)
theorem at2_arg15 (c : Dev nD) : W2 m ρ c (Proc.devRef .tc main_arg15) = m ((c : Thread nD τ).loc main_arg15) :=
  (W2_of_ne m ρ c main_arg15 (by decide)).trans (at1_arg15 m ρ c)
theorem at3_arg15 (c : Dev nD) : W3 m ρ c (Proc.devRef .tc main_arg15) = m ((c : Thread nD τ).loc main_arg15) :=
  (keep1_arg15 (W2 m ρ c)).trans (at2_arg15 m ρ c)
theorem at4_arg15 (c : Dev nD) : W4 m ρ c (Proc.devRef .tc main_arg15) = m ((c : Thread nD τ).loc main_arg15) :=
  (W4_of_ne m ρ c main_arg15 (by decide)).trans (at3_arg15 m ρ c)
theorem at5_arg15 (c : Dev nD) : W5 m ρ c (Proc.devRef .tc main_arg15) = m ((c : Thread nD τ).loc main_arg15) :=
  (keep2_arg15 (W4 m ρ c)).trans (at4_arg15 m ρ c)
theorem at6_arg15 (c : Dev nD) : W6 m ρ c (Proc.devRef .tc main_arg15) = m ((c : Thread nD τ).loc main_arg15) :=
  (W6_of_ne m ρ c main_arg15 (by decide)).trans (at5_arg15 m ρ c)
theorem at7_arg15 (c : Dev nD) : W7 m ρ c (Proc.devRef .tc main_arg15) = m ((c : Thread nD τ).loc main_arg15) :=
  (keep3_arg15 (W6 m ρ c)).trans (at6_arg15 m ρ c)
theorem at1_arg16 (c : Dev nD) : W1 m ρ c (Proc.devRef .tc main_arg16) = m ((c : Thread nD τ).loc main_arg16) :=
  (keep0_arg16 (W0 m ρ c)).trans (rfl)
theorem at2_arg16 (c : Dev nD) : W2 m ρ c (Proc.devRef .tc main_arg16) = m ((c : Thread nD τ).loc main_arg16) :=
  (W2_of_ne m ρ c main_arg16 (by decide)).trans (at1_arg16 m ρ c)
theorem at3_arg16 (c : Dev nD) : W3 m ρ c (Proc.devRef .tc main_arg16) = m ((c : Thread nD τ).loc main_arg16) :=
  (keep1_arg16 (W2 m ρ c)).trans (at2_arg16 m ρ c)
theorem at4_arg16 (c : Dev nD) : W4 m ρ c (Proc.devRef .tc main_arg16) = m ((c : Thread nD τ).loc main_arg16) :=
  (W4_of_ne m ρ c main_arg16 (by decide)).trans (at3_arg16 m ρ c)
theorem at5_arg16 (c : Dev nD) : W5 m ρ c (Proc.devRef .tc main_arg16) = m ((c : Thread nD τ).loc main_arg16) :=
  (keep2_arg16 (W4 m ρ c)).trans (at4_arg16 m ρ c)
theorem at6_arg16 (c : Dev nD) : W6 m ρ c (Proc.devRef .tc main_arg16) = m ((c : Thread nD τ).loc main_arg16) :=
  (W6_of_ne m ρ c main_arg16 (by decide)).trans (at5_arg16 m ρ c)
theorem at7_arg16 (c : Dev nD) : W7 m ρ c (Proc.devRef .tc main_arg16) = m ((c : Thread nD τ).loc main_arg16) :=
  (keep3_arg16 (W6 m ρ c)).trans (at6_arg16 m ρ c)
theorem at8_arg16 (c : Dev nD) : W8 m ρ c (Proc.devRef .tc main_arg16) = m ((c : Thread nD τ).loc main_arg16) :=
  (W8_of_ne m ρ c main_arg16 (by decide)).trans (at7_arg16 m ρ c)
theorem at9_arg16 (c : Dev nD) : W9 m ρ c (Proc.devRef .tc main_arg16) = m ((c : Thread nD τ).loc main_arg16) :=
  (keep4_arg16 (W8 m ρ c)).trans (at8_arg16 m ρ c)
theorem at1_arg17 (c : Dev nD) : W1 m ρ c (Proc.devRef .tc main_arg17) = m ((c : Thread nD τ).loc main_arg17) :=
  (keep0_arg17 (W0 m ρ c)).trans (rfl)
theorem at2_arg17 (c : Dev nD) : W2 m ρ c (Proc.devRef .tc main_arg17) = m ((c : Thread nD τ).loc main_arg17) :=
  (W2_of_ne m ρ c main_arg17 (by decide)).trans (at1_arg17 m ρ c)
theorem at3_arg17 (c : Dev nD) : W3 m ρ c (Proc.devRef .tc main_arg17) = m ((c : Thread nD τ).loc main_arg17) :=
  (keep1_arg17 (W2 m ρ c)).trans (at2_arg17 m ρ c)
theorem at4_arg17 (c : Dev nD) : W4 m ρ c (Proc.devRef .tc main_arg17) = m ((c : Thread nD τ).loc main_arg17) :=
  (W4_of_ne m ρ c main_arg17 (by decide)).trans (at3_arg17 m ρ c)
theorem at5_arg17 (c : Dev nD) : W5 m ρ c (Proc.devRef .tc main_arg17) = m ((c : Thread nD τ).loc main_arg17) :=
  (keep2_arg17 (W4 m ρ c)).trans (at4_arg17 m ρ c)
theorem at6_arg17 (c : Dev nD) : W6 m ρ c (Proc.devRef .tc main_arg17) = m ((c : Thread nD τ).loc main_arg17) :=
  (W6_of_ne m ρ c main_arg17 (by decide)).trans (at5_arg17 m ρ c)
theorem at7_arg17 (c : Dev nD) : W7 m ρ c (Proc.devRef .tc main_arg17) = m ((c : Thread nD τ).loc main_arg17) :=
  (keep3_arg17 (W6 m ρ c)).trans (at6_arg17 m ρ c)
theorem at8_arg17 (c : Dev nD) : W8 m ρ c (Proc.devRef .tc main_arg17) = m ((c : Thread nD τ).loc main_arg17) :=
  (W8_of_ne m ρ c main_arg17 (by decide)).trans (at7_arg17 m ρ c)
theorem at1_arg18 (c : Dev nD) : W1 m ρ c (Proc.devRef .tc main_arg18) = m ((c : Thread nD τ).loc main_arg18) :=
  (keep0_arg18 (W0 m ρ c)).trans (rfl)
theorem at2_arg18 (c : Dev nD) : W2 m ρ c (Proc.devRef .tc main_arg18) = m ((c : Thread nD τ).loc main_arg18) :=
  (W2_of_ne m ρ c main_arg18 (by decide)).trans (at1_arg18 m ρ c)
theorem at3_arg18 (c : Dev nD) : W3 m ρ c (Proc.devRef .tc main_arg18) = m ((c : Thread nD τ).loc main_arg18) :=
  (keep1_arg18 (W2 m ρ c)).trans (at2_arg18 m ρ c)
theorem at4_arg18 (c : Dev nD) : W4 m ρ c (Proc.devRef .tc main_arg18) = m ((c : Thread nD τ).loc main_arg18) :=
  (W4_of_ne m ρ c main_arg18 (by decide)).trans (at3_arg18 m ρ c)
theorem at5_arg18 (c : Dev nD) : W5 m ρ c (Proc.devRef .tc main_arg18) = m ((c : Thread nD τ).loc main_arg18) :=
  (keep2_arg18 (W4 m ρ c)).trans (at4_arg18 m ρ c)
theorem at6_arg18 (c : Dev nD) : W6 m ρ c (Proc.devRef .tc main_arg18) = m ((c : Thread nD τ).loc main_arg18) :=
  (W6_of_ne m ρ c main_arg18 (by decide)).trans (at5_arg18 m ρ c)
theorem at7_arg18 (c : Dev nD) : W7 m ρ c (Proc.devRef .tc main_arg18) = m ((c : Thread nD τ).loc main_arg18) :=
  (keep3_arg18 (W6 m ρ c)).trans (at6_arg18 m ρ c)
theorem at8_arg18 (c : Dev nD) : W8 m ρ c (Proc.devRef .tc main_arg18) = m ((c : Thread nD τ).loc main_arg18) :=
  (W8_of_ne m ρ c main_arg18 (by decide)).trans (at7_arg18 m ρ c)
theorem at9_arg18 (c : Dev nD) : W9 m ρ c (Proc.devRef .tc main_arg18) = m ((c : Thread nD τ).loc main_arg18) :=
  (keep4_arg18 (W8 m ρ c)).trans (at8_arg18 m ρ c)
theorem at1_arg2 (c : Dev nD) : W1 m ρ c (Proc.devRef .tc main_arg2) = m ((c : Thread nD τ).loc main_arg2) :=
  (keep0_arg2 (W0 m ρ c)).trans (rfl)
theorem at2_arg2 (c : Dev nD) : W2 m ρ c (Proc.devRef .tc main_arg2) = m ((c : Thread nD τ).loc main_arg2) :=
  (W2_of_ne m ρ c main_arg2 (by decide)).trans (at1_arg2 m ρ c)
theorem at3_arg2 (c : Dev nD) : W3 m ρ c (Proc.devRef .tc main_arg2) = m ((c : Thread nD τ).loc main_arg2) :=
  (keep1_arg2 (W2 m ρ c)).trans (at2_arg2 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at5_arg2 (c : Dev nD) : W5 m ρ c (Proc.devRef .tc main_arg2) = m ((c : Thread nD τ).loc main_arg2) :=
  (keep2_arg2 (W4 m ρ c)).trans (at4_arg2 m ρ c)
theorem at6_arg2 (c : Dev nD) : W6 m ρ c (Proc.devRef .tc main_arg2) = m ((c : Thread nD τ).loc main_arg2) :=
  (W6_of_ne m ρ c main_arg2 (by decide)).trans (at5_arg2 m ρ c)
theorem at7_arg2 (c : Dev nD) : W7 m ρ c (Proc.devRef .tc main_arg2) = m ((c : Thread nD τ).loc main_arg2) :=
  (keep3_arg2 (W6 m ρ c)).trans (at6_arg2 m ρ c)
theorem at8_arg2 (c : Dev nD) : W8 m ρ c (Proc.devRef .tc main_arg2) = m ((c : Thread nD τ).loc main_arg2) :=
  (W8_of_ne m ρ c main_arg2 (by decide)).trans (at7_arg2 m ρ c)
theorem at9_arg2 (c : Dev nD) : W9 m ρ c (Proc.devRef .tc main_arg2) = m ((c : Thread nD τ).loc main_arg2) :=
  (keep4_arg2 (W8 m ρ c)).trans (at8_arg2 m ρ c)
theorem at10_arg2 (c : Dev nD) : W10 m ρ c (Proc.devRef .tc main_arg2) = m ((c : Thread nD τ).loc main_arg2) :=
  (W10_of_ne m ρ c main_arg2 (by decide)).trans (at9_arg2 m ρ c)
theorem at1_arg19 (c : Dev nD) : W1 m ρ c (Proc.devRef .tc main_arg19) = m ((c : Thread nD τ).loc main_arg19) :=
  (keep0_arg19 (W0 m ρ c)).trans (rfl)
theorem at2_arg19 (c : Dev nD) : W2 m ρ c (Proc.devRef .tc main_arg19) = m ((c : Thread nD τ).loc main_arg19) :=
  (W2_of_ne m ρ c main_arg19 (by decide)).trans (at1_arg19 m ρ c)
theorem at3_arg19 (c : Dev nD) : W3 m ρ c (Proc.devRef .tc main_arg19) = m ((c : Thread nD τ).loc main_arg19) :=
  (keep1_arg19 (W2 m ρ c)).trans (at2_arg19 m ρ c)
theorem at4_arg19 (c : Dev nD) : W4 m ρ c (Proc.devRef .tc main_arg19) = m ((c : Thread nD τ).loc main_arg19) :=
  (W4_of_ne m ρ c main_arg19 (by decide)).trans (at3_arg19 m ρ c)
theorem at5_arg19 (c : Dev nD) : W5 m ρ c (Proc.devRef .tc main_arg19) = m ((c : Thread nD τ).loc main_arg19) :=
  (keep2_arg19 (W4 m ρ c)).trans (at4_arg19 m ρ c)
theorem at6_arg19 (c : Dev nD) : W6 m ρ c (Proc.devRef .tc main_arg19) = m ((c : Thread nD τ).loc main_arg19) :=
  (W6_of_ne m ρ c main_arg19 (by decide)).trans (at5_arg19 m ρ c)
theorem at7_arg19 (c : Dev nD) : W7 m ρ c (Proc.devRef .tc main_arg19) = m ((c : Thread nD τ).loc main_arg19) :=
  (keep3_arg19 (W6 m ρ c)).trans (at6_arg19 m ρ c)
theorem at8_arg19 (c : Dev nD) : W8 m ρ c (Proc.devRef .tc main_arg19) = m ((c : Thread nD τ).loc main_arg19) :=
  (W8_of_ne m ρ c main_arg19 (by decide)).trans (at7_arg19 m ρ c)
theorem at9_arg19 (c : Dev nD) : W9 m ρ c (Proc.devRef .tc main_arg19) = m ((c : Thread nD τ).loc main_arg19) :=
  (keep4_arg19 (W8 m ρ c)).trans (at8_arg19 m ρ c)
theorem at10_arg19 (c : Dev nD) : W10 m ρ c (Proc.devRef .tc main_arg19) = m ((c : Thread nD τ).loc main_arg19) :=
  (W10_of_ne m ρ c main_arg19 (by decide)).trans (at9_arg19 m ρ c)
theorem at11_arg19 (c : Dev nD) : W11 m ρ c (Proc.devRef .tc main_arg19) = m ((c : Thread nD τ).loc main_arg19) :=
  (keep5_arg19 (W10 m ρ c)).trans (at10_arg19 m ρ c)
theorem at1_arg20 (c : Dev nD) : W1 m ρ c (Proc.devRef .tc main_arg20) = m ((c : Thread nD τ).loc main_arg20) :=
  (keep0_arg20 (W0 m ρ c)).trans (rfl)
theorem at2_arg20 (c : Dev nD) : W2 m ρ c (Proc.devRef .tc main_arg20) = m ((c : Thread nD τ).loc main_arg20) :=
  (W2_of_ne m ρ c main_arg20 (by decide)).trans (at1_arg20 m ρ c)
theorem at3_arg20 (c : Dev nD) : W3 m ρ c (Proc.devRef .tc main_arg20) = m ((c : Thread nD τ).loc main_arg20) :=
  (keep1_arg20 (W2 m ρ c)).trans (at2_arg20 m ρ c)
theorem at4_arg20 (c : Dev nD) : W4 m ρ c (Proc.devRef .tc main_arg20) = m ((c : Thread nD τ).loc main_arg20) :=
  (W4_of_ne m ρ c main_arg20 (by decide)).trans (at3_arg20 m ρ c)
theorem at5_arg20 (c : Dev nD) : W5 m ρ c (Proc.devRef .tc main_arg20) = m ((c : Thread nD τ).loc main_arg20) :=
  (keep2_arg20 (W4 m ρ c)).trans (at4_arg20 m ρ c)
theorem at6_arg20 (c : Dev nD) : W6 m ρ c (Proc.devRef .tc main_arg20) = m ((c : Thread nD τ).loc main_arg20) :=
  (W6_of_ne m ρ c main_arg20 (by decide)).trans (at5_arg20 m ρ c)
theorem at7_arg20 (c : Dev nD) : W7 m ρ c (Proc.devRef .tc main_arg20) = m ((c : Thread nD τ).loc main_arg20) :=
  (keep3_arg20 (W6 m ρ c)).trans (at6_arg20 m ρ c)
theorem at8_arg20 (c : Dev nD) : W8 m ρ c (Proc.devRef .tc main_arg20) = m ((c : Thread nD τ).loc main_arg20) :=
  (W8_of_ne m ρ c main_arg20 (by decide)).trans (at7_arg20 m ρ c)
theorem at9_arg20 (c : Dev nD) : W9 m ρ c (Proc.devRef .tc main_arg20) = m ((c : Thread nD τ).loc main_arg20) :=
  (keep4_arg20 (W8 m ρ c)).trans (at8_arg20 m ρ c)
theorem at10_arg20 (c : Dev nD) : W10 m ρ c (Proc.devRef .tc main_arg20) = m ((c : Thread nD τ).loc main_arg20) :=
  (W10_of_ne m ρ c main_arg20 (by decide)).trans (at9_arg20 m ρ c)
theorem at1_arg21 (c : Dev nD) : W1 m ρ c (Proc.devRef .tc main_arg21) = m ((c : Thread nD τ).loc main_arg21) :=
  (keep0_arg21 (W0 m ρ c)).trans (rfl)
theorem at2_arg21 (c : Dev nD) : W2 m ρ c (Proc.devRef .tc main_arg21) = m ((c : Thread nD τ).loc main_arg21) :=
  (W2_of_ne m ρ c main_arg21 (by decide)).trans (at1_arg21 m ρ c)
theorem at3_arg21 (c : Dev nD) : W3 m ρ c (Proc.devRef .tc main_arg21) = m ((c : Thread nD τ).loc main_arg21) :=
  (keep1_arg21 (W2 m ρ c)).trans (at2_arg21 m ρ c)
theorem at4_arg21 (c : Dev nD) : W4 m ρ c (Proc.devRef .tc main_arg21) = m ((c : Thread nD τ).loc main_arg21) :=
  (W4_of_ne m ρ c main_arg21 (by decide)).trans (at3_arg21 m ρ c)
theorem at5_arg21 (c : Dev nD) : W5 m ρ c (Proc.devRef .tc main_arg21) = m ((c : Thread nD τ).loc main_arg21) :=
  (keep2_arg21 (W4 m ρ c)).trans (at4_arg21 m ρ c)
theorem at6_arg21 (c : Dev nD) : W6 m ρ c (Proc.devRef .tc main_arg21) = m ((c : Thread nD τ).loc main_arg21) :=
  (W6_of_ne m ρ c main_arg21 (by decide)).trans (at5_arg21 m ρ c)
theorem at7_arg21 (c : Dev nD) : W7 m ρ c (Proc.devRef .tc main_arg21) = m ((c : Thread nD τ).loc main_arg21) :=
  (keep3_arg21 (W6 m ρ c)).trans (at6_arg21 m ρ c)
theorem at8_arg21 (c : Dev nD) : W8 m ρ c (Proc.devRef .tc main_arg21) = m ((c : Thread nD τ).loc main_arg21) :=
  (W8_of_ne m ρ c main_arg21 (by decide)).trans (at7_arg21 m ρ c)
theorem at9_arg21 (c : Dev nD) : W9 m ρ c (Proc.devRef .tc main_arg21) = m ((c : Thread nD τ).loc main_arg21) :=
  (keep4_arg21 (W8 m ρ c)).trans (at8_arg21 m ρ c)
theorem at10_arg21 (c : Dev nD) : W10 m ρ c (Proc.devRef .tc main_arg21) = m ((c : Thread nD τ).loc main_arg21) :=
  (W10_of_ne m ρ c main_arg21 (by decide)).trans (at9_arg21 m ρ c)
theorem at11_arg21 (c : Dev nD) : W11 m ρ c (Proc.devRef .tc main_arg21) = m ((c : Thread nD τ).loc main_arg21) :=
  (keep5_arg21 (W10 m ρ c)).trans (at10_arg21 m ρ c)
theorem at1_arg22 (c : Dev nD) : W1 m ρ c (Proc.devRef .tc main_arg22) = m ((c : Thread nD τ).loc main_arg22) :=
  (keep0_arg22 (W0 m ρ c)).trans (rfl)
theorem at2_arg22 (c : Dev nD) : W2 m ρ c (Proc.devRef .tc main_arg22) = m ((c : Thread nD τ).loc main_arg22) :=
  (W2_of_ne m ρ c main_arg22 (by decide)).trans (at1_arg22 m ρ c)
theorem at3_arg22 (c : Dev nD) : W3 m ρ c (Proc.devRef .tc main_arg22) = m ((c : Thread nD τ).loc main_arg22) :=
  (keep1_arg22 (W2 m ρ c)).trans (at2_arg22 m ρ c)
theorem at4_arg22 (c : Dev nD) : W4 m ρ c (Proc.devRef .tc main_arg22) = m ((c : Thread nD τ).loc main_arg22) :=
  (W4_of_ne m ρ c main_arg22 (by decide)).trans (at3_arg22 m ρ c)
theorem at5_arg22 (c : Dev nD) : W5 m ρ c (Proc.devRef .tc main_arg22) = m ((c : Thread nD τ).loc main_arg22) :=
  (keep2_arg22 (W4 m ρ c)).trans (at4_arg22 m ρ c)
theorem at6_arg22 (c : Dev nD) : W6 m ρ c (Proc.devRef .tc main_arg22) = m ((c : Thread nD τ).loc main_arg22) :=
  (W6_of_ne m ρ c main_arg22 (by decide)).trans (at5_arg22 m ρ c)
theorem at7_arg22 (c : Dev nD) : W7 m ρ c (Proc.devRef .tc main_arg22) = m ((c : Thread nD τ).loc main_arg22) :=
  (keep3_arg22 (W6 m ρ c)).trans (at6_arg22 m ρ c)
theorem at8_arg22 (c : Dev nD) : W8 m ρ c (Proc.devRef .tc main_arg22) = m ((c : Thread nD τ).loc main_arg22) :=
  (W8_of_ne m ρ c main_arg22 (by decide)).trans (at7_arg22 m ρ c)
theorem at9_arg22 (c : Dev nD) : W9 m ρ c (Proc.devRef .tc main_arg22) = m ((c : Thread nD τ).loc main_arg22) :=
  (keep4_arg22 (W8 m ρ c)).trans (at8_arg22 m ρ c)
theorem at10_arg22 (c : Dev nD) : W10 m ρ c (Proc.devRef .tc main_arg22) = m ((c : Thread nD τ).loc main_arg22) :=
  (W10_of_ne m ρ c main_arg22 (by decide)).trans (at9_arg22 m ρ c)

/-! ## The edges' source and destination nodes, as the first stretch computes them -/

theorem at1_v1 (c : Dev nD) : W1 m ρ c (Proc.devRef .tc main_v1)
    = shapeCast _ (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  after_results; rfl
theorem at1_v3 (c : Dev nD) : W1 m ρ c (Proc.devRef .tc main_v3)
    = shapeCast _ (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results; rfl
theorem at2_v1 (c : Dev nD) : W2 m ρ c (Proc.devRef .tc main_v1)
    = shapeCast _ (extractStridedSlice S1x800000 ![0, 0] (m ((c : Thread nD τ).loc main_arg1)) slices_S2x800000_S1x800000_0_0) shapeCasts_S1x800000_S800000 :=
  (W2_of_ne m ρ c main_v1 (by decide)).trans (at1_v1 m ρ c)
theorem at3_v1 (c : Dev nD) : W3 m ρ c (Proc.devRef .tc main_v1)
    = shapeCast _ (extractStridedSlice S1x800000 ![0, 0] (m ((c : Thread nD τ).loc main_arg1)) slices_S2x800000_S1x800000_0_0) shapeCasts_S1x800000_S800000 :=
  (keep1_v1 (W2 m ρ c)).trans (at2_v1 m ρ c)
theorem at4_v1 (c : Dev nD) : W4 m ρ c (Proc.devRef .tc main_v1)
    = shapeCast _ (extractStridedSlice S1x800000 ![0, 0] (m ((c : Thread nD τ).loc main_arg1)) slices_S2x800000_S1x800000_0_0) shapeCasts_S1x800000_S800000 :=
  (W4_of_ne m ρ c main_v1 (by decide)).trans (at3_v1 m ρ c)
theorem at5_v1 (c : Dev nD) : W5 m ρ c (Proc.devRef .tc main_v1)
    = shapeCast _ (extractStridedSlice S1x800000 ![0, 0] (m ((c : Thread nD τ).loc main_arg1)) slices_S2x800000_S1x800000_0_0) shapeCasts_S1x800000_S800000 :=
  (keep2_v1 (W4 m ρ c)).trans (at4_v1 m ρ c)
theorem at6_v1 (c : Dev nD) : W6 m ρ c (Proc.devRef .tc main_v1)
    = shapeCast _ (extractStridedSlice S1x800000 ![0, 0] (m ((c : Thread nD τ).loc main_arg1)) slices_S2x800000_S1x800000_0_0) shapeCasts_S1x800000_S800000 :=
  (W6_of_ne m ρ c main_v1 (by decide)).trans (at5_v1 m ρ c)
theorem at7_v1 (c : Dev nD) : W7 m ρ c (Proc.devRef .tc main_v1)
    = shapeCast _ (extractStridedSlice S1x800000 ![0, 0] (m ((c : Thread nD τ).loc main_arg1)) slices_S2x800000_S1x800000_0_0) shapeCasts_S1x800000_S800000 :=
  (keep3_v1 (W6 m ρ c)).trans (at6_v1 m ρ c)
theorem at8_v1 (c : Dev nD) : W8 m ρ c (Proc.devRef .tc main_v1)
    = shapeCast _ (extractStridedSlice S1x800000 ![0, 0] (m ((c : Thread nD τ).loc main_arg1)) slices_S2x800000_S1x800000_0_0) shapeCasts_S1x800000_S800000 :=
  (W8_of_ne m ρ c main_v1 (by decide)).trans (at7_v1 m ρ c)
theorem at2_v3 (c : Dev nD) : W2 m ρ c (Proc.devRef .tc main_v3)
    = shapeCast _ (extractStridedSlice S1x800000 ![1, 0] (m ((c : Thread nD τ).loc main_arg1)) slices_S2x800000_S1x800000_1_0) shapeCasts_S1x800000_S800000 :=
  (W2_of_ne m ρ c main_v3 (by decide)).trans (at1_v3 m ρ c)
theorem at3_v3 (c : Dev nD) : W3 m ρ c (Proc.devRef .tc main_v3)
    = shapeCast _ (extractStridedSlice S1x800000 ![1, 0] (m ((c : Thread nD τ).loc main_arg1)) slices_S2x800000_S1x800000_1_0) shapeCasts_S1x800000_S800000 :=
  (keep1_v3 (W2 m ρ c)).trans (at2_v3 m ρ c)
theorem at4_v3 (c : Dev nD) : W4 m ρ c (Proc.devRef .tc main_v3)
    = shapeCast _ (extractStridedSlice S1x800000 ![1, 0] (m ((c : Thread nD τ).loc main_arg1)) slices_S2x800000_S1x800000_1_0) shapeCasts_S1x800000_S800000 :=
  (W4_of_ne m ρ c main_v3 (by decide)).trans (at3_v3 m ρ c)
theorem at5_v3 (c : Dev nD) : W5 m ρ c (Proc.devRef .tc main_v3)
    = shapeCast _ (extractStridedSlice S1x800000 ![1, 0] (m ((c : Thread nD τ).loc main_arg1)) slices_S2x800000_S1x800000_1_0) shapeCasts_S1x800000_S800000 :=
  (keep2_v3 (W4 m ρ c)).trans (at4_v3 m ρ c)
theorem at6_v3 (c : Dev nD) : W6 m ρ c (Proc.devRef .tc main_v3)
    = shapeCast _ (extractStridedSlice S1x800000 ![1, 0] (m ((c : Thread nD τ).loc main_arg1)) slices_S2x800000_S1x800000_1_0) shapeCasts_S1x800000_S800000 :=
  (W6_of_ne m ρ c main_v3 (by decide)).trans (at5_v3 m ρ c)
theorem at7_v3 (c : Dev nD) : W7 m ρ c (Proc.devRef .tc main_v3)
    = shapeCast _ (extractStridedSlice S1x800000 ![1, 0] (m ((c : Thread nD τ).loc main_arg1)) slices_S2x800000_S1x800000_1_0) shapeCasts_S1x800000_S800000 :=
  (keep3_v3 (W6 m ρ c)).trans (at6_v3 m ρ c)
theorem at8_v3 (c : Dev nD) : W8 m ρ c (Proc.devRef .tc main_v3)
    = shapeCast _ (extractStridedSlice S1x800000 ![1, 0] (m ((c : Thread nD τ).loc main_arg1)) slices_S2x800000_S1x800000_1_0) shapeCasts_S1x800000_S800000 :=
  (W8_of_ne m ρ c main_v3 (by decide)).trans (at7_v3 m ρ c)

end Cert.KernelIdeal.Whole

end
-- ==== Proof.DotSum.lean ====
/-
  Matrix products at the ideal instance, read at a pair of coordinates.

  At the ideal instance a product of a rank-2 array [M, K] with a rank-2 array [K, N], contracting the left
  operand's second axis with the right operand's first, is at (p, q) the sum over k of l(p, k) * r(k, q) on the
  extended reals, whether it is computed by the matrix unit into a zero accumulator or by the host's
  dot_general, and whatever the tiling: a block of rows of the product is the product of the block of rows.
  The dimension numbers enter only through four coordinate facts, which each printed record supplies.
-/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

/-- The contraction sum of a plain rank-2 product, re-indexed by the contracted coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (h00 : ∀ j q, (d.lhsIdx j q 0).val = (j 0).val)
    (h01 : ∀ j q, (d.lhsIdx j q 1).val = (q ⟨0, by omega⟩).val)
    (h10 : ∀ j q, (d.rhsIdx j q 0).val = (q ⟨0, by omega⟩).val)
    (h11 : ∀ j q, (d.rhsIdx j q 1).val = (j 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k)
      = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact h00 _ _
    | ⟨1, _⟩ => exact (h01 _ _).trans hk)
  have er : d.rhsIdx (ix2 p q) ((contrEquiv1 d K hr hs).symm k) = ix2 k q := funext fun a => Fin.ext (by
    match a with
    | ⟨0, _⟩ => exact (h10 _ _).trans hk
    | ⟨1, _⟩ => exact h11 _ _)
  rw [el, er]

/-- The matrix unit's product into a zero accumulator, at (p, q). -/
theorem matmul_zero_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (h00 : ∀ j q, (d.lhsIdx j q 0).val = (j 0).val)
    (h01 : ∀ j q, (d.lhsIdx j q 1).val = (q ⟨0, by omega⟩).val)
    (h10 : ∀ j q, (d.rhsIdx j q 0).val = (q ⟨0, by omega⟩).val)
    (h11 : ∀ j q, (d.rhsIdx j q 1).val = (j 1).val)
    (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (contr_sum d hr hs h00 h01 h10 h11 l r p q)

/-- The host's dot_general, at (p, q). -/
theorem dotGeneral_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (h00 : ∀ j q, (d.lhsIdx j q 0).val = (j 0).val)
    (h01 : ∀ j q, (d.lhsIdx j q 1).val = (q ⟨0, by omega⟩).val)
    (h10 : ∀ j q, (d.rhsIdx j q 0).val = (q ⟨0, by omega⟩).val)
    (h11 : ∀ j q, (d.rhsIdx j q 1).val = (j 1).val)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (contr_sum d hr hs h00 h01 h10 h11 l r p q)

end Cert.Bridge

end
-- ==== Proof.LayerBody.lean ====
/-
  The body of a graph-convolution kernel at the ideal instance, read at a pair of coordinates.

  One grid point of a convolution layer loads a block of 2000 rows of the aggregated neighbour features
  `a` and of the node features `h`, the two weight matrices and the bias row, and stores
  max(a·W_rel + h·W_root + bias, 0). At the ideal instance the narrowing of the operands to bf16 is the
  identity and the matrix unit's products into a zero accumulator are exact sums, so entry (p, q) of the
  stored block is
      max((Σ_k a(p,k)·W_rel(k,q) + Σ_k h(p,k)·W_root(k,q)) + bias(0,q), 0)
  on the extended reals. `conv` is that function of whole arrays.
-/
import proofs.«133640_j8100308320579_2_alg».proof.Proof.Gen.KernelIdeal.Skeleton
import proofs.«133640_j8100308320579_2_alg».proof.Proof.DotSum
import Idealize.ShloMosaic.Lib.ValueLayout
import Idealize.ShloMosaic.Lib.Pipeline.Value

noncomputable section

namespace Cert.Bridge

open Idealize.ShloMosaic Idealize.ShloMosaic.ValueIdx Cert.KernelIdeal Cert.KernelIdeal.Gen

/-- A graph-convolution layer on whole arrays at the ideal instance: `n` nodes, `K` input features, `N` output
    features; `a` the aggregated neighbour features, `h` the node features, `b` the bias as a one-row array. -/
def conv {n K N : Nat} (a h : (⟨2, ![n, K]⟩ : Shape).Idx → EReal) (wr wo : (⟨2, ![K, N]⟩ : Shape).Idx → EReal)
    (b : (⟨2, ![1, N]⟩ : Shape).Idx → EReal) : (⟨2, ![n, N]⟩ : Shape).Idx → EReal :=
  fun i => max (((∑ k : Fin K, a (ix2 (i 0) k) * wr (ix2 k (i 1))) + ∑ k : Fin K, h (ix2 (i 0) k) * wo (ix2 k (i 1)))
    + b (ix2 (0 : Fin 1) (i 1))) 0

/-! ## The dimension numbers of the block products -/

/-- The dimension numbers of the [2000, 128] × [128, 256] block product. -/
abbrev d128 : DotDims S2000x128 S128x256 S2000x256 := dot_S2000x128_S128x256_S2000x256_1_0_0_1_n_n
theorem d128_rank : d128.contr.rank = 1 := rfl
theorem d128_size : d128.contr.size ⟨0, by decide⟩ = 128 := rfl
theorem d128_00 (j : S2000x256.Idx) (q : d128.contr.Idx) : (d128.lhsIdx j q 0).val = (j 0).val := by
  unfold DotDims.lhsIdx
  rw [dif_neg (show ¬(0 : Fin S2000x128.rank) ∈ d128.lhsBatch by decide), dif_pos (show (0 : Fin S2000x128.rank) ∈ d128.lhsNonContracting by decide)]
  rfl
theorem d128_01 (j : S2000x256.Idx) (q : d128.contr.Idx) : (d128.lhsIdx j q 1).val = (q ⟨0, by decide⟩).val :=
  d128.lhsIdx_val_of_single rfl j q
theorem d128_10 (j : S2000x256.Idx) (q : d128.contr.Idx) : (d128.rhsIdx j q 0).val = (q ⟨0, by decide⟩).val :=
  d128.rhsIdx_val_of_single rfl j q
theorem d128_11 (j : S2000x256.Idx) (q : d128.contr.Idx) : (d128.rhsIdx j q 1).val = (j 1).val := by
  unfold DotDims.rhsIdx
  rw [dif_neg (show ¬(1 : Fin S128x256.rank) ∈ d128.rhsBatch by decide), dif_pos (show (1 : Fin S128x256.rank) ∈ d128.rhsNonContracting by decide)]
  rfl

/-- The dimension numbers of the [2000, 256] × [256, 256] block product. -/
abbrev d256 : DotDims S2000x256 S256x256 S2000x256 := dot_S2000x256_S256x256_S2000x256_1_0_0_1_n_n
theorem d256_rank : d256.contr.rank = 1 := rfl
theorem d256_size : d256.contr.size ⟨0, by decide⟩ = 256 := rfl
theorem d256_00 (j : S2000x256.Idx) (q : d256.contr.Idx) : (d256.lhsIdx j q 0).val = (j 0).val := by
  unfold DotDims.lhsIdx
  rw [dif_neg (show ¬(0 : Fin S2000x256.rank) ∈ d256.lhsBatch by decide), dif_pos (show (0 : Fin S2000x256.rank) ∈ d256.lhsNonContracting by decide)]
  rfl
theorem d256_01 (j : S2000x256.Idx) (q : d256.contr.Idx) : (d256.lhsIdx j q 1).val = (q ⟨0, by decide⟩).val :=
  d256.lhsIdx_val_of_single rfl j q
theorem d256_10 (j : S2000x256.Idx) (q : d256.contr.Idx) : (d256.rhsIdx j q 0).val = (q ⟨0, by decide⟩).val :=
  d256.rhsIdx_val_of_single rfl j q
theorem d256_11 (j : S2000x256.Idx) (q : d256.contr.Idx) : (d256.rhsIdx j q 1).val = (j 1).val := by
  unfold DotDims.rhsIdx
  rw [dif_neg (show ¬(1 : Fin S256x256.rank) ∈ d256.rhsBatch by decide), dif_pos (show (1 : Fin S256x256.rank) ∈ d256.rhsNonContracting by decide)]
  rfl

/-! ## The stored block at a pair of coordinates -/

/-- The first layer's stored block (128 input features), entry (p, q). -/
theorem pay128_eq (a h : Vec Ideal S2000x128 .f32) (wr wo : Vec Ideal S128x256 .f32) (b : Vec Ideal S1x256 .f32)
    (p : Fin 2000) (q : Fin 256) :
    k0_pay1 (F := Ideal) a h wr wo b (ix2 p q)
      = max (((∑ k : Fin 128, a (ix2 p k) * wr (ix2 k q)) + ∑ k : Fin 128, h (ix2 p k) * wo (ix2 k q)) + b (ix2 (0 : Fin 1) q)) 0 := by
  unfold k0_pay1
  have e1 := matmul_zero_at d128 d128_rank d128_size d128_00 d128_01 d128_10 d128_11 none
    (truncf .bf16 a bitsLt_bf16_f32) (truncf .bf16 wr bitsLt_bf16_f32) p q
  have e2 := matmul_zero_at d128 d128_rank d128_size d128_00 d128_01 d128_10 d128_11 none
    (truncf .bf16 h bitsLt_bf16_f32) (truncf .bf16 wo bitsLt_bf16_f32) p q
  have e3 := broadcastTo_1b_ab_apply b broadcasts_S1x256_S2000x256 p q
  simp only [shapeCast_self]
  exact congrArg₂ max (congrArg₂ (· + ·) (congrArg₂ (· + ·) e1 e2) e3) Ideal.ofBits_zero_f32

/-- A later layer's stored block (256 input features), entry (p, q). -/
theorem pay256_eq (a h : Vec Ideal S2000x256 .f32) (wr wo : Vec Ideal S256x256 .f32) (b : Vec Ideal S1x256 .f32)
    (p : Fin 2000) (q : Fin 256) :
    k1_pay1 (F := Ideal) a h wr wo b (ix2 p q)
      = max (((∑ k : Fin 256, a (ix2 p k) * wr (ix2 k q)) + ∑ k : Fin 256, h (ix2 p k) * wo (ix2 k q)) + b (ix2 (0 : Fin 1) q)) 0 := by
  unfold k1_pay1
  have e1 := matmul_zero_at d256 d256_rank d256_size d256_00 d256_01 d256_10 d256_11 none
    (truncf .bf16 a bitsLt_bf16_f32) (truncf .bf16 wr bitsLt_bf16_f32) p q
  have e2 := matmul_zero_at d256 d256_rank d256_size d256_00 d256_01 d256_10 d256_11 none
    (truncf .bf16 h bitsLt_bf16_f32) (truncf .bf16 wo bitsLt_bf16_f32) p q
  have e3 := broadcastTo_1b_ab_apply b broadcasts_S1x256_S2000x256 p q
  simp only [shapeCast_self]
  exact congrArg₂ max (congrArg₂ (· + ·) (congrArg₂ (· + ·) e1 e2) e3) Ideal.ofBits_zero_f32

/-- Layers three to five run the same body as layer two. -/
theorem pay2_eq_pay1 : @k2_pay1 = @k1_pay1 := rfl
theorem pay3_eq_pay1 : @k3_pay1 = @k1_pay1 := rfl
theorem pay4_eq_pay1 : @k4_pay1 = @k1_pay1 := rfl

end Cert.Bridge

end
-- ==== Proof.Region0.lean ====
/-
  The first graph-convolution region, from blocks to the whole array.

  The region's grid has 25 points; point t stages rows 2000·t … 2000·t + 1999 of the aggregated neighbour
  features and of the node features, the two weight matrices and the bias row whole, runs the body, and writes
  the stored block back to rows 2000·t … 2000·t + 1999 of the output. The blocks tile the 50000 rows, so after
  the region the output array is `conv` of the arrays the region found, whatever those are.
-/
import proofs.«133640_j8100308320579_2_alg».proof.Proof.Gen.KernelIdeal.Frame
import proofs.«133640_j8100308320579_2_alg».proof.Proof.LayerBody

noncomputable section

namespace Cert.Bridge.Region0

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the row-blocked windows sit at block row t, the weights
    and the bias at the origin. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 1600000 in
/-- What grid point t writes back is block t of `conv` of the arrays the region found. -/
theorem flushed_eq (c : Dev nD) (t : Fin cfg0.N) :
    (dat0 V c).flushed 5 t = ((cfg0.win 5).blk t).view.read (Elt Ideal)
      (conv (V c main_v16) (V c main_arg0) (V c main_arg4) (V c main_arg6) (V c main_v17)) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x256) origin, View.ld_unit_zero (S := S1x256) origin]
  obtain ⟨e00, e01, e10, e11, e20, e21, e30, e31, e40, e41, e50, e51⟩ := index_maps t
  have ht : t.val < 25 := lt_of_lt_of_eq t.isLt N_0
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 50000 := ⟨t.val * 2000 + p.val, by omega⟩
  have hemb : ((cfg0.win 5).blk t).view.emb (ix2 p q) = ix2 P q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  have h0 : ∀ k : Fin 128, iblk0 V c 0 t (ix2 p k) = V c main_v16 (ix2 P k) := fun k =>
    congrArg (V c main_v16) (funext fun a => Fin.ext (by
      have hk : k.val < 128 := k.isLt
      match a with
      | ⟨0, _⟩ => show win0_0.index t (0 : Fin 2) * 2000 + 1 * p.val = t.val * 2000 + p.val; omega
      | ⟨1, _⟩ => show win0_0.index t (1 : Fin 2) * 128 + 1 * k.val = k.val; omega))
  have h1 : ∀ k : Fin 128, iblk0 V c 1 t (ix2 p k) = V c main_arg0 (ix2 P k) := fun k =>
    congrArg (V c main_arg0) (funext fun a => Fin.ext (by
      have hk : k.val < 128 := k.isLt
      match a with
      | ⟨0, _⟩ => show win0_1.index t (0 : Fin 2) * 2000 + 1 * p.val = t.val * 2000 + p.val; omega
      | ⟨1, _⟩ => show win0_1.index t (1 : Fin 2) * 128 + 1 * k.val = k.val; omega))
  have h2 : ∀ k : Fin 128, iblk0 V c 2 t (ix2 k q) = V c main_arg4 (ix2 k q) := fun k =>
    congrArg (V c main_arg4) (funext fun a => Fin.ext (by
      have hk : k.val < 128 := k.isLt
      match a with
      | ⟨0, _⟩ => show win0_2.index t (0 : Fin 2) * 128 + 1 * k.val = k.val; omega
      | ⟨1, _⟩ => show win0_2.index t (1 : Fin 2) * 256 + 1 * q.val = q.val; omega))
  have h4 : ∀ k : Fin 128, iblk0 V c 4 t (ix2 k q) = V c main_arg6 (ix2 k q) := fun k =>
    congrArg (V c main_arg6) (funext fun a => Fin.ext (by
      have hk : k.val < 128 := k.isLt
      match a with
      | ⟨0, _⟩ => show win0_4.index t (0 : Fin 2) * 128 + 1 * k.val = k.val; omega
      | ⟨1, _⟩ => show win0_4.index t (1 : Fin 2) * 256 + 1 * q.val = q.val; omega))
  have h3 : iblk0 V c 3 t (ix2 (0 : Fin 1) q) = V c main_v17 (ix2 (0 : Fin 1) q) :=
    congrArg (V c main_v17) (funext fun a => Fin.ext (by
      match a with
      | ⟨0, _⟩ => show win0_3.index t (0 : Fin 2) * 1 + 1 * 0 = 0; omega
      | ⟨1, _⟩ => show win0_3.index t (1 : Fin 2) * 256 + 1 * q.val = q.val; omega))
  show k0_pay1 (iblk0 V c 0 t) (iblk0 V c 1 t) (iblk0 V c 2 t) (iblk0 V c 4 t) (iblk0 V c 3 t) (ix2 p q)
    = conv (V c main_v16) (V c main_arg0) (V c main_arg4) (V c main_arg6) (V c main_v17) (((cfg0.win 5).blk t).view.emb (ix2 p q))
  rw [hemb]
  refine (pay128_eq (iblk0 V c 0 t) (iblk0 V c 1 t) (iblk0 V c 2 t) (iblk0 V c 4 t) (iblk0 V c 3 t) p q).trans ?_
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h4 k))) h3) rfl

/-- An index of the output array is in point t's block iff each coordinate is in the block's range. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v18).slice (win0_5.rect t)).set ↔ _
  rw [View.set_slice_whole, Rect.mem_set_unit]
  exact Iff.rfl

/-- Row r of the output is in the block of point r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨-, -, -, -, -, -, -, -, -, -, e50, e51⟩ := index_maps t
  have htv : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The output array after the region: `conv` of the arrays the region found. -/
theorem final (c : Dev nD) : (dat0 V c).arrAt 5 cfg0.N
    = conv (V c main_v16) (V c main_arg0) (V c main_arg4) (V c main_arg6) (V c main_v17) :=
  (dat0 V c).arrAt_eq_of_cover 5 _ (fun t _ => flushed_eq V c t) cover

end Cert.Bridge.Region0

end
-- ==== Proof.Region1.lean ====
/-
  The second graph-convolution region, from blocks to the whole array.

  The region's grid has 25 points; point t stages rows 2000·t … 2000·t + 1999 of the aggregated neighbour
  features and of the node features, the two weight matrices and the bias row whole, runs the body, and writes
  the stored block back to rows 2000·t … 2000·t + 1999 of the output. The blocks tile the 50000 rows, so after
  the region the output array is `conv` of the arrays the region found, whatever those are.
-/
import proofs.«133640_j8100308320579_2_alg».proof.Proof.Gen.KernelIdeal.Frame
import proofs.«133640_j8100308320579_2_alg».proof.Proof.LayerBody

noncomputable section

namespace Cert.Bridge.Region1

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the row-blocked windows sit at block row t, the weights
    and the bias at the origin. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1600000 in
/-- What grid point t writes back is block t of `conv` of the arrays the region found. -/
theorem flushed_eq (c : Dev nD) (t : Fin cfg1.N) :
    (dat1 V c).flushed 5 t = ((cfg1.win 5).blk t).view.read (Elt Ideal)
      (conv (V c main_v31) (V c main_v18) (V c main_arg7) (V c main_arg9) (V c main_v32)) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := index_maps t
  have ht : t.val < 25 := lt_of_lt_of_eq t.isLt N_1
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 50000 := ⟨t.val * 2000 + p.val, by omega⟩
  have hemb : ((cfg1.win 5).blk t).view.emb (ix2 p q) = ix2 P q := by
    funext a; apply Fin.ext
    match a with
    | ⟨0, _⟩ => show win1_5.index t (0 : Fin 2) * 2000 + 1 * p.val = t.val * 2000 + p.val; omega
    | ⟨1, _⟩ => show win1_5.index t (1 : Fin 2) * 256 + 1 * q.val = q.val; omega
  have h0 : ∀ k : Fin 256, iblk1 V c 0 t (ix2 p k) = V c main_v31 (ix2 P k) := fun k =>
    congrArg (V c main_v31) (funext fun a => Fin.ext (by
      have hk : k.val < 256 := k.isLt
      match a with
      | ⟨0, _⟩ => show win1_0.index t (0 : Fin 2) * 2000 + 1 * p.val = t.val * 2000 + p.val; omega
      | ⟨1, _⟩ => show win1_0.index t (1 : Fin 2) * 256 + 1 * k.val = k.val; omega))
  have h1 : ∀ k : Fin 256, iblk1 V c 1 t (ix2 p k) = V c main_v18 (ix2 P k) := fun k =>
    congrArg (V c main_v18) (funext fun a => Fin.ext (by
      have hk : k.val < 256 := k.isLt
      match a with
      | ⟨0, _⟩ => show win1_1.index t (0 : Fin 2) * 2000 + 1 * p.val = t.val * 2000 + p.val; omega
      | ⟨1, _⟩ => show win1_1.index t (1 : Fin 2) * 256 + 1 * k.val = k.val; omega))
  have h2 : ∀ k : Fin 256, iblk1 V c 2 t (ix2 k q) = V c main_arg7 (ix2 k q) := fun k =>
    congrArg (V c main_arg7) (funext fun a => Fin.ext (by
      have hk : k.val < 256 := k.isLt
      match a with
      | ⟨0, _⟩ => show win1_2.index t (0 : Fin 2) * 256 + 1 * k.val = k.val; omega
      | ⟨1, _⟩ => show win1_2.index t (1 : Fin 2) * 256 + 1 * q.val = q.val; omega))
  have h4 : ∀ k : Fin 256, iblk1 V c 4 t (ix2 k q) = V c main_arg9 (ix2 k q) := fun k =>
    congrArg (V c main_arg9) (funext fun a => Fin.ext (by
      have hk : k.val < 256 := k.isLt
      match a with
      | ⟨0, _⟩ => show win1_4.index t (0 : Fin 2) * 256 + 1 * k.val = k.val; omega
      | ⟨1, _⟩ => show win1_4.index t (1 : Fin 2) * 256 + 1 * q.val = q.val; omega))
  have h3 : iblk1 V c 3 t (ix2 (0 : Fin 1) q) = V c main_v32 (ix2 (0 : Fin 1) q) :=
    congrArg (V c main_v32) (funext fun a => Fin.ext (by
      match a with
      | ⟨0, _⟩ => show win1_3.index t (0 : Fin 2) * 1 + 1 * 0 = 0; omega
      | ⟨1, _⟩ => show win1_3.index t (1 : Fin 2) * 256 + 1 * q.val = q.val; omega))
  show k1_pay1 (iblk1 V c 0 t) (iblk1 V c 1 t) (iblk1 V c 2 t) (iblk1 V c 4 t) (iblk1 V c 3 t) (ix2 p q)
    = conv (V c main_v31) (V c main_v18) (V c main_arg7) (V c main_arg9) (V c main_v32) (((cfg1.win 5).blk t).view.emb (ix2 p q))
  rw [hemb]
  refine (pay256_eq (iblk1 V c 0 t) (iblk1 V c 1 t) (iblk1 V c 2 t) (iblk1 V c 4 t) (iblk1 V c 3 t) p q).trans ?_
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h4 k))) h3) rfl

/-- An index of the output array is in point t's block iff each coordinate is in the block's range. -/
theorem mem_block (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v33).slice (win1_5.rect t)).set ↔ _
  rw [View.set_slice_whole, Rect.mem_set_unit]
  exact Iff.rfl

/-- Row r of the output is in the block of point r / 2000. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 2000, by rw [show cfg1.N = 25 from N_1]; omega⟩
  obtain ⟨-, -, -, -, -, -, -, -, -, -, e50, e51⟩ := index_maps t
  have htv : t.val = (i 0).val / 2000 := rfl
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The output array after the region: `conv` of the arrays the region found. -/
theorem final (c : Dev nD) : (dat1 V c).arrAt 5 cfg1.N
    = conv (V c main_v31) (V c main_v18) (V c main_arg7) (V c main_arg9) (V c main_v32) :=
  (dat1 V c).arrAt_eq_of_cover 5 _ (fun t _ => flushed_eq V c t) cover

end Cert.Bridge.Region1

end
-- ==== Proof.Region2.lean ====
/-
  The third graph-convolution region, from blocks to the whole array.

  The region's grid has 25 points; point t stages rows 2000·t … 2000·t + 1999 of the aggregated neighbour
  features and of the node features, the two weight matrices and the bias row whole, runs the body, and writes
  the stored block back to rows 2000·t … 2000·t + 1999 of the output. The blocks tile the 50000 rows, so after
  the region the output array is `conv` of the arrays the region found, whatever those are.
-/
import proofs.«133640_j8100308320579_2_alg».proof.Proof.Gen.KernelIdeal.Frame
import proofs.«133640_j8100308320579_2_alg».proof.Proof.LayerBody

noncomputable section

namespace Cert.Bridge.Region2

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the row-blocked windows sit at block row t, the weights
    and the bias at the origin. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What grid point t writes back is block t of `conv` of the arrays the region found. -/
theorem flushed_eq (c : Dev nD) (t : Fin cfg2.N) :
    (dat2 V c).flushed 5 t = ((cfg2.win 5).blk t).view.read (Elt Ideal)
      (conv (V c main_v46) (V c main_v33) (V c main_arg10) (V c main_arg12) (V c main_v47)) := by
  show (cfg2.win 5).cut (grid2.coords t) ((dat2 V c).after 5 t) = _
  rw [after2_5]
  unfold out2_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := index_maps t
  have ht : t.val < 25 := lt_of_lt_of_eq t.isLt N_2
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 50000 := ⟨t.val * 2000 + p.val, by omega⟩
  have hemb : ((cfg2.win 5).blk t).view.emb (ix2 p q) = ix2 P q := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  have h0 : ∀ k : Fin 256, iblk2 V c 0 t (ix2 p k) = V c main_v46 (ix2 P k) := fun k =>
    congrArg (V c main_v46) (funext fun a => Fin.ext (by
      have hk : k.val < 256 := k.isLt
      match a with
      | ⟨0, _⟩ => show win2_0.index t (0 : Fin 2) * 2000 + 1 * p.val = t.val * 2000 + p.val; omega
      | ⟨1, _⟩ => show win2_0.index t (1 : Fin 2) * 256 + 1 * k.val = k.val; omega))
  have h1 : ∀ k : Fin 256, iblk2 V c 1 t (ix2 p k) = V c main_v33 (ix2 P k) := fun k =>
    congrArg (V c main_v33) (funext fun a => Fin.ext (by
      have hk : k.val < 256 := k.isLt
      match a with
      | ⟨0, _⟩ => show win2_1.index t (0 : Fin 2) * 2000 + 1 * p.val = t.val * 2000 + p.val; omega
      | ⟨1, _⟩ => show win2_1.index t (1 : Fin 2) * 256 + 1 * k.val = k.val; omega))
  have h2 : ∀ k : Fin 256, iblk2 V c 2 t (ix2 k q) = V c main_arg10 (ix2 k q) := fun k =>
    congrArg (V c main_arg10) (funext fun a => Fin.ext (by
      have hk : k.val < 256 := k.isLt
      match a with
      | ⟨0, _⟩ => show win2_2.index t (0 : Fin 2) * 256 + 1 * k.val = k.val; omega
      | ⟨1, _⟩ => show win2_2.index t (1 : Fin 2) * 256 + 1 * q.val = q.val; omega))
  have h4 : ∀ k : Fin 256, iblk2 V c 4 t (ix2 k q) = V c main_arg12 (ix2 k q) := fun k =>
    congrArg (V c main_arg12) (funext fun a => Fin.ext (by
      have hk : k.val < 256 := k.isLt
      match a with
      | ⟨0, _⟩ => show win2_4.index t (0 : Fin 2) * 256 + 1 * k.val = k.val; omega
      | ⟨1, _⟩ => show win2_4.index t (1 : Fin 2) * 256 + 1 * q.val = q.val; omega))
  have h3 : iblk2 V c 3 t (ix2 (0 : Fin 1) q) = V c main_v47 (ix2 (0 : Fin 1) q) :=
    congrArg (V c main_v47) (funext fun a => Fin.ext (by
      match a with
      | ⟨0, _⟩ => show win2_3.index t (0 : Fin 2) * 1 + 1 * 0 = 0; omega
      | ⟨1, _⟩ => show win2_3.index t (1 : Fin 2) * 256 + 1 * q.val = q.val; omega))
  show k1_pay1 (iblk2 V c 0 t) (iblk2 V c 1 t) (iblk2 V c 2 t) (iblk2 V c 4 t) (iblk2 V c 3 t) (ix2 p q)
    = conv (V c main_v46) (V c main_v33) (V c main_arg10) (V c main_arg12) (V c main_v47) (((cfg2.win 5).blk t).view.emb (ix2 p q))
  rw [hemb]
  refine (pay256_eq (iblk2 V c 0 t) (iblk2 V c 1 t) (iblk2 V c 2 t) (iblk2 V c 4 t) (iblk2 V c 3 t) p q).trans ?_
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h4 k))) h3) rfl

/-- An index of the output array is in point t's block iff each coordinate is in the block's range. -/
theorem mem_block (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v48).slice (win2_5.rect t)).set ↔ _
  rw [View.set_slice_whole, Rect.mem_set_unit]
  exact Iff.rfl

/-- Row r of the output is in the block of point r / 2000. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  let t : Fin cfg2.N := ⟨(i 0).val / 2000, by rw [show cfg2.N = 25 from N_2]; omega⟩
  obtain ⟨-, -, -, -, -, -, -, -, -, -, e50, e51⟩ := index_maps t
  have htv : t.val = (i 0).val / 2000 := rfl
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The output array after the region: `conv` of the arrays the region found. -/
theorem final (c : Dev nD) : (dat2 V c).arrAt 5 cfg2.N
    = conv (V c main_v46) (V c main_v33) (V c main_arg10) (V c main_arg12) (V c main_v47) :=
  (dat2 V c).arrAt_eq_of_cover 5 _ (fun t _ => flushed_eq V c t) cover

end Cert.Bridge.Region2

end
-- ==== Proof.Region3.lean ====
/-
  The fourth graph-convolution region, from blocks to the whole array.

  The region's grid has 25 points; point t stages rows 2000·t … 2000·t + 1999 of the aggregated neighbour
  features and of the node features, the two weight matrices and the bias row whole, runs the body, and writes
  the stored block back to rows 2000·t … 2000·t + 1999 of the output. The blocks tile the 50000 rows, so after
  the region the output array is `conv` of the arrays the region found, whatever those are.
-/
import proofs.«133640_j8100308320579_2_alg».proof.Proof.Gen.KernelIdeal.Frame
import proofs.«133640_j8100308320579_2_alg».proof.Proof.LayerBody

noncomputable section

namespace Cert.Bridge.Region3

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the row-blocked windows sit at block row t, the weights
    and the bias at the origin. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1600000 in
/-- What grid point t writes back is block t of `conv` of the arrays the region found. -/
theorem flushed_eq (c : Dev nD) (t : Fin cfg3.N) :
    (dat3 V c).flushed 5 t = ((cfg3.win 5).blk t).view.read (Elt Ideal)
      (conv (V c main_v61) (V c main_v48) (V c main_arg13) (V c main_arg15) (V c main_v62)) := by
  show (cfg3.win 5).cut (grid3.coords t) ((dat3 V c).after 5 t) = _
  rw [after3_5]
  unfold out3_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := index_maps t
  have ht : t.val < 25 := lt_of_lt_of_eq t.isLt N_3
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 50000 := ⟨t.val * 2000 + p.val, by omega⟩
  have hemb : ((cfg3.win 5).blk t).view.emb (ix2 p q) = ix2 P q := by
    funext a; apply Fin.ext
    match a with
    | ⟨0, _⟩ => show win3_5.index t (0 : Fin 2) * 2000 + 1 * p.val = t.val * 2000 + p.val; omega
    | ⟨1, _⟩ => show win3_5.index t (1 : Fin 2) * 256 + 1 * q.val = q.val; omega
  have h0 : ∀ k : Fin 256, iblk3 V c 0 t (ix2 p k) = V c main_v61 (ix2 P k) := fun k =>
    congrArg (V c main_v61) (funext fun a => Fin.ext (by
      have hk : k.val < 256 := k.isLt
      match a with
      | ⟨0, _⟩ => show win3_0.index t (0 : Fin 2) * 2000 + 1 * p.val = t.val * 2000 + p.val; omega
      | ⟨1, _⟩ => show win3_0.index t (1 : Fin 2) * 256 + 1 * k.val = k.val; omega))
  have h1 : ∀ k : Fin 256, iblk3 V c 1 t (ix2 p k) = V c main_v48 (ix2 P k) := fun k =>
    congrArg (V c main_v48) (funext fun a => Fin.ext (by
      have hk : k.val < 256 := k.isLt
      match a with
      | ⟨0, _⟩ => show win3_1.index t (0 : Fin 2) * 2000 + 1 * p.val = t.val * 2000 + p.val; omega
      | ⟨1, _⟩ => show win3_1.index t (1 : Fin 2) * 256 + 1 * k.val = k.val; omega))
  have h2 : ∀ k : Fin 256, iblk3 V c 2 t (ix2 k q) = V c main_arg13 (ix2 k q) := fun k =>
    congrArg (V c main_arg13) (funext fun a => Fin.ext (by
      have hk : k.val < 256 := k.isLt
      match a with
      | ⟨0, _⟩ => show win3_2.index t (0 : Fin 2) * 256 + 1 * k.val = k.val; omega
      | ⟨1, _⟩ => show win3_2.index t (1 : Fin 2) * 256 + 1 * q.val = q.val; omega))
  have h4 : ∀ k : Fin 256, iblk3 V c 4 t (ix2 k q) = V c main_arg15 (ix2 k q) := fun k =>
    congrArg (V c main_arg15) (funext fun a => Fin.ext (by
      have hk : k.val < 256 := k.isLt
      match a with
      | ⟨0, _⟩ => show win3_4.index t (0 : Fin 2) * 256 + 1 * k.val = k.val; omega
      | ⟨1, _⟩ => show win3_4.index t (1 : Fin 2) * 256 + 1 * q.val = q.val; omega))
  have h3 : iblk3 V c 3 t (ix2 (0 : Fin 1) q) = V c main_v62 (ix2 (0 : Fin 1) q) :=
    congrArg (V c main_v62) (funext fun a => Fin.ext (by
      match a with
      | ⟨0, _⟩ => show win3_3.index t (0 : Fin 2) * 1 + 1 * 0 = 0; omega
      | ⟨1, _⟩ => show win3_3.index t (1 : Fin 2) * 256 + 1 * q.val = q.val; omega))
  show k1_pay1 (iblk3 V c 0 t) (iblk3 V c 1 t) (iblk3 V c 2 t) (iblk3 V c 4 t) (iblk3 V c 3 t) (ix2 p q)
    = conv (V c main_v61) (V c main_v48) (V c main_arg13) (V c main_arg15) (V c main_v62) (((cfg3.win 5).blk t).view.emb (ix2 p q))
  rw [hemb]
  refine (pay256_eq (iblk3 V c 0 t) (iblk3 V c 1 t) (iblk3 V c 2 t) (iblk3 V c 4 t) (iblk3 V c 3 t) p q).trans ?_
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h4 k))) h3) rfl

/-- An index of the output array is in point t's block iff each coordinate is in the block's range. -/
theorem mem_block (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v63).slice (win3_5.rect t)).set ↔ _
  rw [View.set_slice_whole, Rect.mem_set_unit]
  exact Iff.rfl

/-- Row r of the output is in the block of point r / 2000. -/
theorem cover (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  let t : Fin cfg3.N := ⟨(i 0).val / 2000, by rw [show cfg3.N = 25 from N_3]; omega⟩
  obtain ⟨-, -, -, -, -, -, -, -, -, -, e50, e51⟩ := index_maps t
  have htv : t.val = (i 0).val / 2000 := rfl
  refine ⟨t, flush3_5 t, ?_⟩
  rw [mem_block]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The output array after the region: `conv` of the arrays the region found. -/
theorem final (c : Dev nD) : (dat3 V c).arrAt 5 cfg3.N
    = conv (V c main_v61) (V c main_v48) (V c main_arg13) (V c main_arg15) (V c main_v62) :=
  (dat3 V c).arrAt_eq_of_cover 5 _ (fun t _ => flushed_eq V c t) cover

end Cert.Bridge.Region3

end
-- ==== Proof.Region4.lean ====
/-
  The fifth graph-convolution region, from blocks to the whole array.

  The region's grid has 25 points; point t stages rows 2000·t … 2000·t + 1999 of the aggregated neighbour
  features and of the node features, the two weight matrices and the bias row whole, runs the body, and writes
  the stored block back to rows 2000·t … 2000·t + 1999 of the output. The blocks tile the 50000 rows, so after
  the region the output array is `conv` of the arrays the region found, whatever those are.
-/
import proofs.«133640_j8100308320579_2_alg».proof.Proof.Gen.KernelIdeal.Frame
import proofs.«133640_j8100308320579_2_alg».proof.Proof.LayerBody

noncomputable section

namespace Cert.Bridge.Region4

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the row-blocked windows sit at block row t, the weights
    and the bias at the origin. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1600000 in
/-- What grid point t writes back is block t of `conv` of the arrays the region found. -/
theorem flushed_eq (c : Dev nD) (t : Fin cfg4.N) :
    (dat4 V c).flushed 5 t = ((cfg4.win 5).blk t).view.read (Elt Ideal)
      (conv (V c main_v76) (V c main_v63) (V c main_arg16) (V c main_arg18) (V c main_v77)) := by
  show (cfg4.win 5).cut (grid4.coords t) ((dat4 V c).after 5 t) = _
  rw [after4_5]
  unfold out4_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := index_maps t
  have ht : t.val < 25 := lt_of_lt_of_eq t.isLt N_4
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 50000 := ⟨t.val * 2000 + p.val, by omega⟩
  have hemb : ((cfg4.win 5).blk t).view.emb (ix2 p q) = ix2 P q := by
    funext a; apply Fin.ext
    match a with
    | ⟨0, _⟩ => show win4_5.index t (0 : Fin 2) * 2000 + 1 * p.val = t.val * 2000 + p.val; omega
    | ⟨1, _⟩ => show win4_5.index t (1 : Fin 2) * 256 + 1 * q.val = q.val; omega
  have h0 : ∀ k : Fin 256, iblk4 V c 0 t (ix2 p k) = V c main_v76 (ix2 P k) := fun k =>
    congrArg (V c main_v76) (funext fun a => Fin.ext (by
      have hk : k.val < 256 := k.isLt
      match a with
      | ⟨0, _⟩ => show win4_0.index t (0 : Fin 2) * 2000 + 1 * p.val = t.val * 2000 + p.val; omega
      | ⟨1, _⟩ => show win4_0.index t (1 : Fin 2) * 256 + 1 * k.val = k.val; omega))
  have h1 : ∀ k : Fin 256, iblk4 V c 1 t (ix2 p k) = V c main_v63 (ix2 P k) := fun k =>
    congrArg (V c main_v63) (funext fun a => Fin.ext (by
      have hk : k.val < 256 := k.isLt
      match a with
      | ⟨0, _⟩ => show win4_1.index t (0 : Fin 2) * 2000 + 1 * p.val = t.val * 2000 + p.val; omega
      | ⟨1, _⟩ => show win4_1.index t (1 : Fin 2) * 256 + 1 * k.val = k.val; omega))
  have h2 : ∀ k : Fin 256, iblk4 V c 2 t (ix2 k q) = V c main_arg16 (ix2 k q) := fun k =>
    congrArg (V c main_arg16) (funext fun a => Fin.ext (by
      have hk : k.val < 256 := k.isLt
      match a with
      | ⟨0, _⟩ => show win4_2.index t (0 : Fin 2) * 256 + 1 * k.val = k.val; omega
      | ⟨1, _⟩ => show win4_2.index t (1 : Fin 2) * 256 + 1 * q.val = q.val; omega))
  have h4 : ∀ k : Fin 256, iblk4 V c 4 t (ix2 k q) = V c main_arg18 (ix2 k q) := fun k =>
    congrArg (V c main_arg18) (funext fun a => Fin.ext (by
      have hk : k.val < 256 := k.isLt
      match a with
      | ⟨0, _⟩ => show win4_4.index t (0 : Fin 2) * 256 + 1 * k.val = k.val; omega
      | ⟨1, _⟩ => show win4_4.index t (1 : Fin 2) * 256 + 1 * q.val = q.val; omega))
  have h3 : iblk4 V c 3 t (ix2 (0 : Fin 1) q) = V c main_v77 (ix2 (0 : Fin 1) q) :=
    congrArg (V c main_v77) (funext fun a => Fin.ext (by
      match a with
      | ⟨0, _⟩ => show win4_3.index t (0 : Fin 2) * 1 + 1 * 0 = 0; omega
      | ⟨1, _⟩ => show win4_3.index t (1 : Fin 2) * 256 + 1 * q.val = q.val; omega))
  show k1_pay1 (iblk4 V c 0 t) (iblk4 V c 1 t) (iblk4 V c 2 t) (iblk4 V c 4 t) (iblk4 V c 3 t) (ix2 p q)
    = conv (V c main_v76) (V c main_v63) (V c main_arg16) (V c main_arg18) (V c main_v77) (((cfg4.win 5).blk t).view.emb (ix2 p q))
  rw [hemb]
  refine (pay256_eq (iblk4 V c 0 t) (iblk4 V c 1 t) (iblk4 V c 2 t) (iblk4 V c 4 t) (iblk4 V c 3 t) p q).trans ?_
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h4 k))) h3) rfl

/-- An index of the output array is in point t's block iff each coordinate is in the block's range. -/
theorem mem_block (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v78).slice (win4_5.rect t)).set ↔ _
  rw [View.set_slice_whole, Rect.mem_set_unit]
  exact Iff.rfl

/-- Row r of the output is in the block of point r / 2000. -/
theorem cover (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  let t : Fin cfg4.N := ⟨(i 0).val / 2000, by rw [show cfg4.N = 25 from N_4]; omega⟩
  obtain ⟨-, -, -, -, -, -, -, -, -, -, e50, e51⟩ := index_maps t
  have htv : t.val = (i 0).val / 2000 := rfl
  refine ⟨t, flush4_5 t, ?_⟩
  rw [mem_block]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- The output array after the region: `conv` of the arrays the region found. -/
theorem final (c : Dev nD) : (dat4 V c).arrAt 5 cfg4.N
    = conv (V c main_v76) (V c main_v63) (V c main_arg16) (V c main_arg18) (V c main_v77) :=
  (dat4 V c).arrAt_eq_of_cover 5 _ (fun t _ => flushed_eq V c t) cover

end Cert.Bridge.Region4

end
-- ==== Proof.RefLayers.lean ====
/-
  The reference's graph-convolution layers are `conv`.

  The reference computes a layer on whole arrays: the host's dot_general of the aggregated neighbour features
  with W_rel, plus the bias broadcast down the rows, plus the dot_general of the node features with W_root,
  and the maximum with zero. At the ideal instance each dot_general is at (p, q) the sum over k of the products,
  so the layer is at (p, q)
      max(((Σ_k a(p,k)·W_rel(k,q)) + bias(q)) + Σ_k h(p,k)·W_root(k,q), 0),
  which is `conv` at (p, q) by commuting the bias past the second sum: addition of extended reals is
  commutative and associative, so no finiteness is needed.
-/
import proofs.«133640_j8100308320579_2_alg».proof.Proof.Gen.ReferenceIdeal.Read
import proofs.«133640_j8100308320579_2_alg».proof.Proof.LayerBody

noncomputable section

namespace Cert.Bridge

open Idealize.ShloMosaic Idealize.ShloMosaic.ValueIdx

/-- Layer 1 of the reference, as `conv` of its aggregated neighbour features, its node features, the two weight
    matrices and the bias read as one row. -/
theorem ref_layer1 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) :
    Cert.ReferenceIdeal.Read.val_main_v23 (F := Ideal) x0 x1 x3 x4 x5 x6
      = conv (Cert.ReferenceIdeal.Read.val_main_v16 (F := Ideal) x0 x1 x3) (x0) x4 x6 (shapeCast Cert.KernelIdeal.S1x256 x5 Cert.KernelIdeal.Facts₀.shapeCasts_S256_S1x256) := by
  funext i
  obtain ⟨p, q, rfl⟩ : ∃ (p : Fin 50000) (q : Fin 256), i = ix2 p q := ⟨i 0, i 1, eq_ix2 i⟩
  rw [Cert.ReferenceIdeal.Read.val_main_v23_apply, Cert.ReferenceIdeal.Read.val_main_v22_apply, Cert.ReferenceIdeal.Read.val_main_v20_apply, Cert.ReferenceIdeal.Read.val_main_v17_apply,
    Cert.ReferenceIdeal.Read.val_main_v21_apply, Cert.ReferenceIdeal.Read.val_main_v19_apply, Cert.ReferenceIdeal.Read.val_main_v18_apply, Cert.ReferenceIdeal.Read.val_main_call0_v0_apply,
    Cert.ReferenceIdeal.Read.val_main_call0_cst_apply]
  have hl1 : ∀ k : Fin 128, Cert.ReferenceIdeal.Read.lidx_main_v17 (ix2 p q) k = ix2 p k := fun k => funext fun a => Fin.ext (by
    match a with | ⟨0, _⟩ => rfl | ⟨1, _⟩ => rfl)
  have hr1 : ∀ k : Fin 128, Cert.ReferenceIdeal.Read.ridx_main_v17 (ix2 p q) k = ix2 k q := fun k => funext fun a => Fin.ext (by
    match a with | ⟨0, _⟩ => rfl | ⟨1, _⟩ => rfl)
  have hl2 : ∀ k : Fin 128, Cert.ReferenceIdeal.Read.lidx_main_v21 (ix2 p q) k = ix2 p k := fun k => funext fun a => Fin.ext (by
    match a with | ⟨0, _⟩ => rfl | ⟨1, _⟩ => rfl)
  have hr2 : ∀ k : Fin 128, Cert.ReferenceIdeal.Read.ridx_main_v21 (ix2 p q) k = ix2 k q := fun k => funext fun a => Fin.ext (by
    match a with | ⟨0, _⟩ => rfl | ⟨1, _⟩ => rfl)
  have hb : Cert.ReferenceIdeal.Read.idx_main_v18 (Cert.ReferenceIdeal.Read.idx_main_v19 (ix2 p q)) = ix1 q := funext fun a => Fin.ext (by
    match a with | ⟨0, _⟩ => rfl)
  simp only [hl1, hr1, hl2, hr2, hb]
  have hs := shapeCast_a_1a_apply x5 Cert.KernelIdeal.Facts₀.shapeCasts_S256_S1x256 (0 : Fin 1) q
  show max (((∑ k : Fin 128, (Cert.ReferenceIdeal.Read.val_main_v16 (F := Ideal) x0 x1 x3) (ix2 p k) * x4 (ix2 k q)) + x5 (ix1 q))
      + ∑ k : Fin 128, (x0) (ix2 p k) * x6 (ix2 k q)) (Ideal.ofBits .f32 0x00000000#32)
    = max (((∑ k : Fin 128, (Cert.ReferenceIdeal.Read.val_main_v16 (F := Ideal) x0 x1 x3) (ix2 p k) * x4 (ix2 k q))
      + ∑ k : Fin 128, (x0) (ix2 p k) * x6 (ix2 k q))
      + shapeCast Cert.KernelIdeal.S1x256 x5 Cert.KernelIdeal.Facts₀.shapeCasts_S256_S1x256 (ix2 (0 : Fin 1) q)) 0
  rw [hs, Ideal.ofBits_zero_f32, add_right_comm]

/-- Layer 2 of the reference, as `conv` of its aggregated neighbour features, its node features, the two weight
    matrices and the bias read as one row. -/
theorem ref_layer2 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) :
    Cert.ReferenceIdeal.Read.val_main_v43 (F := Ideal) x0 x1 x3 x4 x5 x6 x7 x8 x9
      = conv (Cert.ReferenceIdeal.Read.val_main_v36 (F := Ideal) x0 x1 x3 x4 x5 x6) (Cert.ReferenceIdeal.Read.val_main_v23 (F := Ideal) x0 x1 x3 x4 x5 x6) x7 x9 (shapeCast Cert.KernelIdeal.S1x256 x8 Cert.KernelIdeal.Facts₀.shapeCasts_S256_S1x256) := by
  funext i
  obtain ⟨p, q, rfl⟩ : ∃ (p : Fin 50000) (q : Fin 256), i = ix2 p q := ⟨i 0, i 1, eq_ix2 i⟩
  rw [Cert.ReferenceIdeal.Read.val_main_v43_apply, Cert.ReferenceIdeal.Read.val_main_v42_apply, Cert.ReferenceIdeal.Read.val_main_v40_apply, Cert.ReferenceIdeal.Read.val_main_v37_apply,
    Cert.ReferenceIdeal.Read.val_main_v41_apply, Cert.ReferenceIdeal.Read.val_main_v39_apply, Cert.ReferenceIdeal.Read.val_main_v38_apply, Cert.ReferenceIdeal.Read.val_main_call1_v0_apply,
    Cert.ReferenceIdeal.Read.val_main_call1_cst_apply]
  have hl1 : ∀ k : Fin 256, Cert.ReferenceIdeal.Read.lidx_main_v37 (ix2 p q) k = ix2 p k := fun k => funext fun a => Fin.ext (by
    match a with | ⟨0, _⟩ => rfl | ⟨1, _⟩ => rfl)
  have hr1 : ∀ k : Fin 256, Cert.ReferenceIdeal.Read.ridx_main_v37 (ix2 p q) k = ix2 k q := fun k => funext fun a => Fin.ext (by
    match a with | ⟨0, _⟩ => rfl | ⟨1, _⟩ => rfl)
  have hl2 : ∀ k : Fin 256, Cert.ReferenceIdeal.Read.lidx_main_v41 (ix2 p q) k = ix2 p k := fun k => funext fun a => Fin.ext (by
    match a with | ⟨0, _⟩ => rfl | ⟨1, _⟩ => rfl)
  have hr2 : ∀ k : Fin 256, Cert.ReferenceIdeal.Read.ridx_main_v41 (ix2 p q) k = ix2 k q := fun k => funext fun a => Fin.ext (by
    match a with | ⟨0, _⟩ => rfl | ⟨1, _⟩ => rfl)
  have hb : Cert.ReferenceIdeal.Read.idx_main_v38 (Cert.ReferenceIdeal.Read.idx_main_v39 (ix2 p q)) = ix1 q := funext fun a => Fin.ext (by
    match a with | ⟨0, _⟩ => rfl)
  simp only [hl1, hr1, hl2, hr2, hb]
  have hs := shapeCast_a_1a_apply x8 Cert.KernelIdeal.Facts₀.shapeCasts_S256_S1x256 (0 : Fin 1) q
  show max (((∑ k : Fin 256, (Cert.ReferenceIdeal.Read.val_main_v36 (F := Ideal) x0 x1 x3 x4 x5 x6) (ix2 p k) * x7 (ix2 k q)) + x8 (ix1 q))
      + ∑ k : Fin 256, (Cert.ReferenceIdeal.Read.val_main_v23 (F := Ideal) x0 x1 x3 x4 x5 x6) (ix2 p k) * x9 (ix2 k q)) (Ideal.ofBits .f32 0x00000000#32)
    = max (((∑ k : Fin 256, (Cert.ReferenceIdeal.Read.val_main_v36 (F := Ideal) x0 x1 x3 x4 x5 x6) (ix2 p k) * x7 (ix2 k q))
      + ∑ k : Fin 256, (Cert.ReferenceIdeal.Read.val_main_v23 (F := Ideal) x0 x1 x3 x4 x5 x6) (ix2 p k) * x9 (ix2 k q))
      + shapeCast Cert.KernelIdeal.S1x256 x8 Cert.KernelIdeal.Facts₀.shapeCasts_S256_S1x256 (ix2 (0 : Fin 1) q)) 0
  rw [hs, Ideal.ofBits_zero_f32, add_right_comm]

/-- Layer 3 of the reference, as `conv` of its aggregated neighbour features, its node features, the two weight
    matrices and the bias read as one row. -/
theorem ref_layer3 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) :
    Cert.ReferenceIdeal.Read.val_main_v63 (F := Ideal) x0 x1 x3 x4 x5 x6 x7 x8 x9 x10 x11 x12
      = conv (Cert.ReferenceIdeal.Read.val_main_v56 (F := Ideal) x0 x1 x3 x4 x5 x6 x7 x8 x9) (Cert.ReferenceIdeal.Read.val_main_v43 (F := Ideal) x0 x1 x3 x4 x5 x6 x7 x8 x9) x10 x12 (shapeCast Cert.KernelIdeal.S1x256 x11 Cert.KernelIdeal.Facts₀.shapeCasts_S256_S1x256) := by
  funext i
  obtain ⟨p, q, rfl⟩ : ∃ (p : Fin 50000) (q : Fin 256), i = ix2 p q := ⟨i 0, i 1, eq_ix2 i⟩
  rw [Cert.ReferenceIdeal.Read.val_main_v63_apply, Cert.ReferenceIdeal.Read.val_main_v62_apply, Cert.ReferenceIdeal.Read.val_main_v60_apply, Cert.ReferenceIdeal.Read.val_main_v57_apply,
    Cert.ReferenceIdeal.Read.val_main_v61_apply, Cert.ReferenceIdeal.Read.val_main_v59_apply, Cert.ReferenceIdeal.Read.val_main_v58_apply, Cert.ReferenceIdeal.Read.val_main_call2_v0_apply,
    Cert.ReferenceIdeal.Read.val_main_call2_cst_apply]
  have hl1 : ∀ k : Fin 256, Cert.ReferenceIdeal.Read.lidx_main_v57 (ix2 p q) k = ix2 p k := fun k => funext fun a => Fin.ext (by
    match a with | ⟨0, _⟩ => rfl | ⟨1, _⟩ => rfl)
  have hr1 : ∀ k : Fin 256, Cert.ReferenceIdeal.Read.ridx_main_v57 (ix2 p q) k = ix2 k q := fun k => funext fun a => Fin.ext (by
    match a with | ⟨0, _⟩ => rfl | ⟨1, _⟩ => rfl)
  have hl2 : ∀ k : Fin 256, Cert.ReferenceIdeal.Read.lidx_main_v61 (ix2 p q) k = ix2 p k := fun k => funext fun a => Fin.ext (by
    match a with | ⟨0, _⟩ => rfl | ⟨1, _⟩ => rfl)
  have hr2 : ∀ k : Fin 256, Cert.ReferenceIdeal.Read.ridx_main_v61 (ix2 p q) k = ix2 k q := fun k => funext fun a => Fin.ext (by
    match a with | ⟨0, _⟩ => rfl | ⟨1, _⟩ => rfl)
  have hb : Cert.ReferenceIdeal.Read.idx_main_v58 (Cert.ReferenceIdeal.Read.idx_main_v59 (ix2 p q)) = ix1 q := funext fun a => Fin.ext (by
    match a with | ⟨0, _⟩ => rfl)
  simp only [hl1, hr1, hl2, hr2, hb]
  have hs := shapeCast_a_1a_apply x11 Cert.KernelIdeal.Facts₀.shapeCasts_S256_S1x256 (0 : Fin 1) q
  show max (((∑ k : Fin 256, (Cert.ReferenceIdeal.Read.val_main_v56 (F := Ideal) x0 x1 x3 x4 x5 x6 x7 x8 x9) (ix2 p k) * x10 (ix2 k q)) + x11 (ix1 q))
      + ∑ k : Fin 256, (Cert.ReferenceIdeal.Read.val_main_v43 (F := Ideal) x0 x1 x3 x4 x5 x6 x7 x8 x9) (ix2 p k) * x12 (ix2 k q)) (Ideal.ofBits .f32 0x00000000#32)
    = max (((∑ k : Fin 256, (Cert.ReferenceIdeal.Read.val_main_v56 (F := Ideal) x0 x1 x3 x4 x5 x6 x7 x8 x9) (ix2 p k) * x10 (ix2 k q))
      + ∑ k : Fin 256, (Cert.ReferenceIdeal.Read.val_main_v43 (F := Ideal) x0 x1 x3 x4 x5 x6 x7 x8 x9) (ix2 p k) * x12 (ix2 k q))
      + shapeCast Cert.KernelIdeal.S1x256 x11 Cert.KernelIdeal.Facts₀.shapeCasts_S256_S1x256 (ix2 (0 : Fin 1) q)) 0
  rw [hs, Ideal.ofBits_zero_f32, add_right_comm]

/-- Layer 4 of the reference, as `conv` of its aggregated neighbour features, its node features, the two weight
    matrices and the bias read as one row. -/
theorem ref_layer4 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) :
    Cert.ReferenceIdeal.Read.val_main_v83 (F := Ideal) x0 x1 x3 x4 x5 x6 x7 x8 x9 x10 x11 x12 x13 x14 x15
      = conv (Cert.ReferenceIdeal.Read.val_main_v76 (F := Ideal) x0 x1 x3 x4 x5 x6 x7 x8 x9 x10 x11 x12) (Cert.ReferenceIdeal.Read.val_main_v63 (F := Ideal) x0 x1 x3 x4 x5 x6 x7 x8 x9 x10 x11 x12) x13 x15 (shapeCast Cert.KernelIdeal.S1x256 x14 Cert.KernelIdeal.Facts₀.shapeCasts_S256_S1x256) := by
  funext i
  obtain ⟨p, q, rfl⟩ : ∃ (p : Fin 50000) (q : Fin 256), i = ix2 p q := ⟨i 0, i 1, eq_ix2 i⟩
  rw [Cert.ReferenceIdeal.Read.val_main_v83_apply, Cert.ReferenceIdeal.Read.val_main_v82_apply, Cert.ReferenceIdeal.Read.val_main_v80_apply, Cert.ReferenceIdeal.Read.val_main_v77_apply,
    Cert.ReferenceIdeal.Read.val_main_v81_apply, Cert.ReferenceIdeal.Read.val_main_v79_apply, Cert.ReferenceIdeal.Read.val_main_v78_apply, Cert.ReferenceIdeal.Read.val_main_call3_v0_apply,
    Cert.ReferenceIdeal.Read.val_main_call3_cst_apply]
  have hl1 : ∀ k : Fin 256, Cert.ReferenceIdeal.Read.lidx_main_v77 (ix2 p q) k = ix2 p k := fun k => funext fun a => Fin.ext (by
    match a with | ⟨0, _⟩ => rfl | ⟨1, _⟩ => rfl)
  have hr1 : ∀ k : Fin 256, Cert.ReferenceIdeal.Read.ridx_main_v77 (ix2 p q) k = ix2 k q := fun k => funext fun a => Fin.ext (by
    match a with | ⟨0, _⟩ => rfl | ⟨1, _⟩ => rfl)
  have hl2 : ∀ k : Fin 256, Cert.ReferenceIdeal.Read.lidx_main_v81 (ix2 p q) k = ix2 p k := fun k => funext fun a => Fin.ext (by
    match a with | ⟨0, _⟩ => rfl | ⟨1, _⟩ => rfl)
  have hr2 : ∀ k : Fin 256, Cert.ReferenceIdeal.Read.ridx_main_v81 (ix2 p q) k = ix2 k q := fun k => funext fun a => Fin.ext (by
    match a with | ⟨0, _⟩ => rfl | ⟨1, _⟩ => rfl)
  have hb : Cert.ReferenceIdeal.Read.idx_main_v78 (Cert.ReferenceIdeal.Read.idx_main_v79 (ix2 p q)) = ix1 q := funext fun a => Fin.ext (by
    match a with | ⟨0, _⟩ => rfl)
  simp only [hl1, hr1, hl2, hr2, hb]
  have hs := shapeCast_a_1a_apply x14 Cert.KernelIdeal.Facts₀.shapeCasts_S256_S1x256 (0 : Fin 1) q
  show max (((∑ k : Fin 256, (Cert.ReferenceIdeal.Read.val_main_v76 (F := Ideal) x0 x1 x3 x4 x5 x6 x7 x8 x9 x10 x11 x12) (ix2 p k) * x13 (ix2 k q)) + x14 (ix1 q))
      + ∑ k : Fin 256, (Cert.ReferenceIdeal.Read.val_main_v63 (F := Ideal) x0 x1 x3 x4 x5 x6 x7 x8 x9 x10 x11 x12) (ix2 p k) * x15 (ix2 k q)) (Ideal.ofBits .f32 0x00000000#32)
    = max (((∑ k : Fin 256, (Cert.ReferenceIdeal.Read.val_main_v76 (F := Ideal) x0 x1 x3 x4 x5 x6 x7 x8 x9 x10 x11 x12) (ix2 p k) * x13 (ix2 k q))
      + ∑ k : Fin 256, (Cert.ReferenceIdeal.Read.val_main_v63 (F := Ideal) x0 x1 x3 x4 x5 x6 x7 x8 x9 x10 x11 x12) (ix2 p k) * x15 (ix2 k q))
      + shapeCast Cert.KernelIdeal.S1x256 x14 Cert.KernelIdeal.Facts₀.shapeCasts_S256_S1x256 (ix2 (0 : Fin 1) q)) 0
  rw [hs, Ideal.ofBits_zero_f32, add_right_comm]

/-- Layer 5 of the reference, as `conv` of its aggregated neighbour features, its node features, the two weight
    matrices and the bias read as one row. -/
theorem ref_layer5 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256x256, .f32⟩ : BufTy).Contents (Elt Ideal)) (x17 : (⟨Cert.ReferenceIdeal.S256, .f32⟩ : BufTy).Contents (Elt Ideal)) (x18 : (⟨Cert.ReferenceIdeal.S256x256, .f32⟩ : BufTy).Contents (Elt Ideal)) :
    Cert.ReferenceIdeal.Read.val_main_v103 (F := Ideal) x0 x1 x3 x4 x5 x6 x7 x8 x9 x10 x11 x12 x13 x14 x15 x16 x17 x18
      = conv (Cert.ReferenceIdeal.Read.val_main_v96 (F := Ideal) x0 x1 x3 x4 x5 x6 x7 x8 x9 x10 x11 x12 x13 x14 x15) (Cert.ReferenceIdeal.Read.val_main_v83 (F := Ideal) x0 x1 x3 x4 x5 x6 x7 x8 x9 x10 x11 x12 x13 x14 x15) x16 x18 (shapeCast Cert.KernelIdeal.S1x256 x17 Cert.KernelIdeal.Facts₀.shapeCasts_S256_S1x256) := by
  funext i
  obtain ⟨p, q, rfl⟩ : ∃ (p : Fin 50000) (q : Fin 256), i = ix2 p q := ⟨i 0, i 1, eq_ix2 i⟩
  rw [Cert.ReferenceIdeal.Read.val_main_v103_apply, Cert.ReferenceIdeal.Read.val_main_v102_apply, Cert.ReferenceIdeal.Read.val_main_v100_apply, Cert.ReferenceIdeal.Read.val_main_v97_apply,
    Cert.ReferenceIdeal.Read.val_main_v101_apply, Cert.ReferenceIdeal.Read.val_main_v99_apply, Cert.ReferenceIdeal.Read.val_main_v98_apply, Cert.ReferenceIdeal.Read.val_main_call4_v0_apply,
    Cert.ReferenceIdeal.Read.val_main_call4_cst_apply]
  have hl1 : ∀ k : Fin 256, Cert.ReferenceIdeal.Read.lidx_main_v97 (ix2 p q) k = ix2 p k := fun k => funext fun a => Fin.ext (by
    match a with | ⟨0, _⟩ => rfl | ⟨1, _⟩ => rfl)
  have hr1 : ∀ k : Fin 256, Cert.ReferenceIdeal.Read.ridx_main_v97 (ix2 p q) k = ix2 k q := fun k => funext fun a => Fin.ext (by
    match a with | ⟨0, _⟩ => rfl | ⟨1, _⟩ => rfl)
  have hl2 : ∀ k : Fin 256, Cert.ReferenceIdeal.Read.lidx_main_v101 (ix2 p q) k = ix2 p k := fun k => funext fun a => Fin.ext (by
    match a with | ⟨0, _⟩ => rfl | ⟨1, _⟩ => rfl)
  have hr2 : ∀ k : Fin 256, Cert.ReferenceIdeal.Read.ridx_main_v101 (ix2 p q) k = ix2 k q := fun k => funext fun a => Fin.ext (by
    match a with | ⟨0, _⟩ => rfl | ⟨1, _⟩ => rfl)
  have hb : Cert.ReferenceIdeal.Read.idx_main_v98 (Cert.ReferenceIdeal.Read.idx_main_v99 (ix2 p q)) = ix1 q := funext fun a => Fin.ext (by
    match a with | ⟨0, _⟩ => rfl)
  simp only [hl1, hr1, hl2, hr2, hb]
  have hs := shapeCast_a_1a_apply x17 Cert.KernelIdeal.Facts₀.shapeCasts_S256_S1x256 (0 : Fin 1) q
  show max (((∑ k : Fin 256, (Cert.ReferenceIdeal.Read.val_main_v96 (F := Ideal) x0 x1 x3 x4 x5 x6 x7 x8 x9 x10 x11 x12 x13 x14 x15) (ix2 p k) * x16 (ix2 k q)) + x17 (ix1 q))
      + ∑ k : Fin 256, (Cert.ReferenceIdeal.Read.val_main_v83 (F := Ideal) x0 x1 x3 x4 x5 x6 x7 x8 x9 x10 x11 x12 x13 x14 x15) (ix2 p k) * x18 (ix2 k q)) (Ideal.ofBits .f32 0x00000000#32)
    = max (((∑ k : Fin 256, (Cert.ReferenceIdeal.Read.val_main_v96 (F := Ideal) x0 x1 x3 x4 x5 x6 x7 x8 x9 x10 x11 x12 x13 x14 x15) (ix2 p k) * x16 (ix2 k q))
      + ∑ k : Fin 256, (Cert.ReferenceIdeal.Read.val_main_v83 (F := Ideal) x0 x1 x3 x4 x5 x6 x7 x8 x9 x10 x11 x12 x13 x14 x15) (ix2 p k) * x18 (ix2 k q))
      + shapeCast Cert.KernelIdeal.S1x256 x17 Cert.KernelIdeal.Facts₀.shapeCasts_S256_S1x256 (ix2 (0 : Fin 1) q)) 0
  rw [hs, Ideal.ofBits_zero_f32, add_right_comm]

end Cert.Bridge

end
-- ==== Proof.Layers.lean ====
/-
  The kernel's five graph-convolution layers, read through the fold.

  Layer k of the kernel program is a stretch of host operations — the edges' source rows gathered from the
  previous layer's node features, weighted by the edge weights and scatter-added into the destination rows;
  the bias reshaped to one row — followed by a region that applies `conv`. The host operations are the
  reference's own, applied to the same buffers, and the region's output is `conv` of what it found, so by
  induction over the layers the node features after layer k are the reference's node features after layer k,
  as functions of the launch contents of the arguments.
-/
import proofs.«133640_j8100308320579_2_alg».proof.Proof.Gen.KernelIdeal.Frame
import proofs.«133640_j8100308320579_2_alg».proof.Proof.Carry
import proofs.«133640_j8100308320579_2_alg».proof.Proof.Region0
import proofs.«133640_j8100308320579_2_alg».proof.Proof.Region1
import proofs.«133640_j8100308320579_2_alg».proof.Proof.Region2
import proofs.«133640_j8100308320579_2_alg».proof.Proof.Region3
import proofs.«133640_j8100308320579_2_alg».proof.Proof.Region4
import proofs.«133640_j8100308320579_2_alg».proof.Proof.RefLayers

noncomputable section

namespace Cert.KernelIdeal.Whole

open Cert.KernelIdeal Cert.KernelIdeal.Gen Cert.Bridge
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Layer 1 -/

set_option maxHeartbeats 1600000 in
/-- The aggregated neighbour features layer 1's region finds are the reference's. -/
theorem entry_agg1 (c : Dev nD) : V1 m ρ c main_v16 = Cert.ReferenceIdeal.Read.val_main_v16 (F := Ideal) (m ((c : Thread nD τ).loc main_arg0)) (m ((c : Thread nD τ).loc main_arg1)) (m ((c : Thread nD τ).loc main_arg3)) := by
  show StableHlo.after hostOps0 (W0 m ρ c) (Proc.devRef .tc main_v16) = _
  after_results_simp
  unfold Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rfl

/-- The bias row layer 1's region finds is the bias argument read as one row. -/
theorem entry_bias1 (c : Dev nD) : V1 m ρ c main_v17 = shapeCast S1x256 (m ((c : Thread nD τ).loc main_arg5)) shapeCasts_S256_S1x256 := by
  show StableHlo.after hostOps0 (W0 m ρ c) (Proc.devRef .tc main_v17) = _
  after_results_simp
  rfl

/-- After layer 1's region the node features are the reference's after its layer 1. -/
theorem kernel_layer1 (c : Dev nD) : W2 m ρ c (Proc.devRef .tc main_v18)
    = Cert.ReferenceIdeal.Read.val_main_v23 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W2_arr m ρ c 5).trans (Region0.final (V1 m ρ) c)).trans ?_
  have eH : V1 m ρ c main_arg0 = (m ((c : Thread nD τ).loc main_arg0)) := at1_arg0 m ρ c
  have eWr : V1 m ρ c main_arg4 = (m ((c : Thread nD τ).loc main_arg4)) := at1_arg4 m ρ c
  have eWo : V1 m ρ c main_arg6 = (m ((c : Thread nD τ).loc main_arg6)) := at1_arg6 m ρ c
  rw [entry_agg1 m ρ c, eH, eWr, eWo, entry_bias1 m ρ c]
  exact (ref_layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

/-! ## Layer 2 -/

set_option maxHeartbeats 1600000 in
/-- The aggregated neighbour features layer 2's region finds are the reference's. -/
theorem entry_agg2 (c : Dev nD) : V3 m ρ c main_v31 = Cert.ReferenceIdeal.Read.val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v31) = _
  after_results_simp
  rw [at2_v1 m ρ c, at2_v3 m ρ c, at2_arg3 m ρ c, kernel_layer1 m ρ c]
  unfold Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_c_1 Cert.ReferenceIdeal.Read.val_main_c_2 Cert.ReferenceIdeal.Read.val_main_cst_3 Cert.ReferenceIdeal.Read.val_main_v3 Cert.ReferenceIdeal.Read.val_main_v2 Cert.ReferenceIdeal.Read.val_main_v1 Cert.ReferenceIdeal.Read.val_main_v0
  rfl

/-- The bias row layer 2's region finds is the bias argument read as one row. -/
theorem entry_bias2 (c : Dev nD) : V3 m ρ c main_v32 = shapeCast S1x256 (m ((c : Thread nD τ).loc main_arg8)) shapeCasts_S256_S1x256 := by
  show StableHlo.after hostOps1 (W2 m ρ c) (Proc.devRef .tc main_v32) = _
  after_results_simp
  rw [at2_arg8 m ρ c]
  rfl

/-- After layer 2's region the node features are the reference's after its layer 2. -/
theorem kernel_layer2 (c : Dev nD) : W4 m ρ c (Proc.devRef .tc main_v33)
    = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 5).trans (Region1.final (V3 m ρ) c)).trans ?_
  have eH : V3 m ρ c main_v18 = Cert.ReferenceIdeal.Read.val_main_v23 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep1_v18 (W2 m ρ c)).trans (kernel_layer1 m ρ c)
  have eWr : V3 m ρ c main_arg7 = (m ((c : Thread nD τ).loc main_arg7)) := at3_arg7 m ρ c
  have eWo : V3 m ρ c main_arg9 = (m ((c : Thread nD τ).loc main_arg9)) := at3_arg9 m ρ c
  rw [entry_agg2 m ρ c, eH, eWr, eWo, entry_bias2 m ρ c]
  exact (ref_layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## Layer 3 -/

set_option maxHeartbeats 1600000 in
/-- The aggregated neighbour features layer 3's region finds are the reference's. -/
theorem entry_agg3 (c : Dev nD) : V5 m ρ c main_v46 = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v46) = _
  after_results_simp
  rw [at4_v1 m ρ c, at4_v3 m ρ c, at4_arg3 m ρ c, kernel_layer2 m ρ c]
  unfold Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_c_4 Cert.ReferenceIdeal.Read.val_main_c_5 Cert.ReferenceIdeal.Read.val_main_cst_6 Cert.ReferenceIdeal.Read.val_main_v3 Cert.ReferenceIdeal.Read.val_main_v2 Cert.ReferenceIdeal.Read.val_main_v1 Cert.ReferenceIdeal.Read.val_main_v0
  rfl

/-- The bias row layer 3's region finds is the bias argument read as one row. -/
theorem entry_bias3 (c : Dev nD) : V5 m ρ c main_v47 = shapeCast S1x256 (m ((c : Thread nD τ).loc main_arg11)) shapeCasts_S256_S1x256 := by
  show StableHlo.after hostOps2 (W4 m ρ c) (Proc.devRef .tc main_v47) = _
  after_results_simp
  rw [at4_arg11 m ρ c]
  rfl

/-- After layer 3's region the node features are the reference's after its layer 3. -/
theorem kernel_layer3 (c : Dev nD) : W6 m ρ c (Proc.devRef .tc main_v48)
    = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W6_arr m ρ c 5).trans (Region2.final (V5 m ρ) c)).trans ?_
  have eH : V5 m ρ c main_v33 = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (keep2_v33 (W4 m ρ c)).trans (kernel_layer2 m ρ c)
  have eWr : V5 m ρ c main_arg10 = (m ((c : Thread nD τ).loc main_arg10)) := at5_arg10 m ρ c
  have eWo : V5 m ρ c main_arg12 = (m ((c : Thread nD τ).loc main_arg12)) := at5_arg12 m ρ c
  rw [entry_agg3 m ρ c, eH, eWr, eWo, entry_bias3 m ρ c]
  exact (ref_layer3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

/-! ## Layer 4 -/

set_option maxHeartbeats 1600000 in
/-- The aggregated neighbour features layer 4's region finds are the reference's. -/
theorem entry_agg4 (c : Dev nD) : V7 m ρ c main_v61 = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v61) = _
  after_results_simp
  rw [at6_v1 m ρ c, at6_v3 m ρ c, at6_arg3 m ρ c, kernel_layer3 m ρ c]
  unfold Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_c_7 Cert.ReferenceIdeal.Read.val_main_c_8 Cert.ReferenceIdeal.Read.val_main_cst_9 Cert.ReferenceIdeal.Read.val_main_v3 Cert.ReferenceIdeal.Read.val_main_v2 Cert.ReferenceIdeal.Read.val_main_v1 Cert.ReferenceIdeal.Read.val_main_v0
  rfl

/-- The bias row layer 4's region finds is the bias argument read as one row. -/
theorem entry_bias4 (c : Dev nD) : V7 m ρ c main_v62 = shapeCast S1x256 (m ((c : Thread nD τ).loc main_arg14)) shapeCasts_S256_S1x256 := by
  show StableHlo.after hostOps3 (W6 m ρ c) (Proc.devRef .tc main_v62) = _
  after_results_simp
  rw [at6_arg14 m ρ c]
  rfl

/-- After layer 4's region the node features are the reference's after its layer 4. -/
theorem kernel_layer4 (c : Dev nD) : W8 m ρ c (Proc.devRef .tc main_v63)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W8_arr m ρ c 5).trans (Region3.final (V7 m ρ) c)).trans ?_
  have eH : V7 m ρ c main_v48 = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := (keep3_v48 (W6 m ρ c)).trans (kernel_layer3 m ρ c)
  have eWr : V7 m ρ c main_arg13 = (m ((c : Thread nD τ).loc main_arg13)) := at7_arg13 m ρ c
  have eWo : V7 m ρ c main_arg15 = (m ((c : Thread nD τ).loc main_arg15)) := at7_arg15 m ρ c
  rw [entry_agg4 m ρ c, eH, eWr, eWo, entry_bias4 m ρ c]
  exact (ref_layer4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm

/-! ## Layer 5 -/

set_option maxHeartbeats 1600000 in
/-- The aggregated neighbour features layer 5's region finds are the reference's. -/
theorem entry_agg5 (c : Dev nD) : V9 m ρ c main_v76 = Cert.ReferenceIdeal.Read.val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps4 (W8 m ρ c) (Proc.devRef .tc main_v76) = _
  after_results_simp
  rw [at8_v1 m ρ c, at8_v3 m ρ c, at8_arg3 m ρ c, kernel_layer4 m ρ c]
  unfold Cert.ReferenceIdeal.Read.val_main_v96 Cert.ReferenceIdeal.Read.val_main_v95 Cert.ReferenceIdeal.Read.val_main_v94 Cert.ReferenceIdeal.Read.val_main_v93 Cert.ReferenceIdeal.Read.val_main_v92 Cert.ReferenceIdeal.Read.val_main_v91 Cert.ReferenceIdeal.Read.val_main_v90 Cert.ReferenceIdeal.Read.val_main_v89 Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_c_10 Cert.ReferenceIdeal.Read.val_main_c_11 Cert.ReferenceIdeal.Read.val_main_cst_12 Cert.ReferenceIdeal.Read.val_main_v3 Cert.ReferenceIdeal.Read.val_main_v2 Cert.ReferenceIdeal.Read.val_main_v1 Cert.ReferenceIdeal.Read.val_main_v0
  rfl

/-- The bias row layer 5's region finds is the bias argument read as one row. -/
theorem entry_bias5 (c : Dev nD) : V9 m ρ c main_v77 = shapeCast S1x256 (m ((c : Thread nD τ).loc main_arg17)) shapeCasts_S256_S1x256 := by
  show StableHlo.after hostOps4 (W8 m ρ c) (Proc.devRef .tc main_v77) = _
  after_results_simp
  rw [at8_arg17 m ρ c]
  rfl

/-- After layer 5's region the node features are the reference's after its layer 5. -/
theorem kernel_layer5 (c : Dev nD) : W10 m ρ c (Proc.devRef .tc main_v78)
    = Cert.ReferenceIdeal.Read.val_main_v103 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine ((W10_arr m ρ c 5).trans (Region4.final (V9 m ρ) c)).trans ?_
  have eH : V9 m ρ c main_v63 = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := (keep4_v63 (W8 m ρ c)).trans (kernel_layer4 m ρ c)
  have eWr : V9 m ρ c main_arg16 = (m ((c : Thread nD τ).loc main_arg16)) := at9_arg16 m ρ c
  have eWo : V9 m ρ c main_arg18 = (m ((c : Thread nD τ).loc main_arg18)) := at9_arg18 m ρ c
  rw [entry_agg5 m ρ c, eH, eWr, eWo, entry_bias5 m ρ c]
  exact (ref_layer5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).symm

end Cert.KernelIdeal.Whole

end
-- ==== Proof.Region5.lean ====
/-
  The classifier-head region, from its one block to the whole array.

  The region's grid has one point; every window is its whole array at the origin, so the body reads the arrays
  the region found and the one block it writes back is the whole output array.
-/
import proofs.«133640_j8100308320579_2_alg».proof.Proof.Gen.KernelIdeal.Frame
import Idealize.ShloMosaic.Lib.ValueIdx
import Idealize.ShloMosaic.Lib.Pipeline.Value

noncomputable section

namespace Cert.Bridge.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Every window of the head sits at the origin, at its one grid point. -/
theorem index_maps : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The head's body depends on its operands only through their entries. -/
theorem body_congr (a0 b0 : Vec Ideal S256x256 .f32) (a1 b1 : Vec Ideal S256x256 .f32) (a2 b2 : Vec Ideal S1x256 .f32) (a3 b3 : Vec Ideal S256x10 .f32) (a4 b4 : Vec Ideal S1x10 .f32)
    (h0 : ∀ y, a0 y = b0 y) (h1 : ∀ y, a1 y = b1 y) (h2 : ∀ y, a2 y = b2 y) (h3 : ∀ y, a3 y = b3 y) (h4 : ∀ y, a4 y = b4 y) :
    k5_pay1 (F := Ideal) a0 a1 a2 a3 a4 = k5_pay1 (F := Ideal) b0 b1 b2 b3 b4 := by
  rw [funext h0, funext h1, funext h2, funext h3, funext h4]

set_option maxHeartbeats 1600000 in
/-- What the one grid point writes back is the body's result on the arrays the region found. -/
theorem flushed_eq (c : Dev nD) (t : Fin cfg5.N) :
    (dat5 V c).flushed 5 t = ((cfg5.win 5).blk t).view.read (Elt Ideal)
      (k5_pay1 (F := Ideal) (V c main_v81) (V c main_arg19) (V c main_v82) (V c main_arg21) (V c main_v83)) := by
  show (cfg5.win 5).cut (grid5.coords t) ((dat5 V c).after 5 t) = _
  rw [after5_5]
  unfold out5_5
  rw [View.canon_unit_zero origin]
  simp only [View.ld_unit_zero (S := S256x256) origin, View.ld_unit_zero (S := S1x256) origin, View.ld_unit_zero (S := S256x10) origin, View.ld_unit_zero (S := S1x10) origin]
  obtain ⟨e00, e01, e10, e11, e20, e21, e30, e31, e40, e41, e50, e51⟩ := index_maps t
  have g0 : ∀ y : S256x256.Idx, iblk5 V c 0 t y = V c main_v81 y := fun y =>
    congrArg (V c main_v81) (funext fun a => Fin.ext (by
      match a with
      | ⟨0, _⟩ => show win5_0.index t (0 : Fin 2) * 256 + 1 * (y 0).val = (y 0).val; omega
      | ⟨1, _⟩ => show win5_0.index t (1 : Fin 2) * 256 + 1 * (y 1).val = (y 1).val; omega))
  have g1 : ∀ y : S256x256.Idx, iblk5 V c 1 t y = V c main_arg19 y := fun y =>
    congrArg (V c main_arg19) (funext fun a => Fin.ext (by
      match a with
      | ⟨0, _⟩ => show win5_1.index t (0 : Fin 2) * 256 + 1 * (y 0).val = (y 0).val; omega
      | ⟨1, _⟩ => show win5_1.index t (1 : Fin 2) * 256 + 1 * (y 1).val = (y 1).val; omega))
  have g2 : ∀ y : S1x256.Idx, iblk5 V c 2 t y = V c main_v82 y := fun y =>
    congrArg (V c main_v82) (funext fun a => Fin.ext (by
      match a with
      | ⟨0, _⟩ => show win5_2.index t (0 : Fin 2) * 1 + 1 * (y 0).val = (y 0).val; omega
      | ⟨1, _⟩ => show win5_2.index t (1 : Fin 2) * 256 + 1 * (y 1).val = (y 1).val; omega))
  have g3 : ∀ y : S256x10.Idx, iblk5 V c 3 t y = V c main_arg21 y := fun y =>
    congrArg (V c main_arg21) (funext fun a => Fin.ext (by
      match a with
      | ⟨0, _⟩ => show win5_3.index t (0 : Fin 2) * 256 + 1 * (y 0).val = (y 0).val; omega
      | ⟨1, _⟩ => show win5_3.index t (1 : Fin 2) * 10 + 1 * (y 1).val = (y 1).val; omega))
  have g4 : ∀ y : S1x10.Idx, iblk5 V c 4 t y = V c main_v83 y := fun y =>
    congrArg (V c main_v83) (funext fun a => Fin.ext (by
      match a with
      | ⟨0, _⟩ => show win5_4.index t (0 : Fin 2) * 1 + 1 * (y 0).val = (y 0).val; omega
      | ⟨1, _⟩ => show win5_4.index t (1 : Fin 2) * 10 + 1 * (y 1).val = (y 1).val; omega))
  funext j
  obtain ⟨p, q, rfl⟩ : ∃ (p : Fin 256) (q : Fin 10), j = ix2 p q := ⟨j 0, j 1, eq_ix2 j⟩
  have hemb : ((cfg5.win 5).blk t).view.emb (ix2 p q) = ix2 p q := by
    funext a; apply Fin.ext
    match a with
    | ⟨0, _⟩ => show win5_5.index t (0 : Fin 2) * 256 + 1 * p.val = p.val; omega
    | ⟨1, _⟩ => show win5_5.index t (1 : Fin 2) * 10 + 1 * q.val = q.val; omega
  show k5_pay1 (iblk5 V c 0 t) (iblk5 V c 1 t) (iblk5 V c 2 t) (iblk5 V c 3 t) (iblk5 V c 4 t) (ix2 p q)
    = k5_pay1 (F := Ideal) (V c main_v81) (V c main_arg19) (V c main_v82) (V c main_arg21) (V c main_v83) (((cfg5.win 5).blk t).view.emb (ix2 p q))
  rw [hemb]
  exact congrFun (body_congr (iblk5 V c 0 t) (V c main_v81) (iblk5 V c 1 t) (V c main_arg19) (iblk5 V c 2 t) (V c main_v82)
    (iblk5 V c 3 t) (V c main_arg21) (iblk5 V c 4 t) (V c main_v83) g0 g1 g2 g3 g4) (ix2 p q)

theorem mem_block (t : Fin cfg5.N) (i : S256x10.Idx) :
    i ∈ ((cfg5.win 5).blk t).view.set ↔ ∀ a : Fin 2, win5_5.index t a * S256x10.size a ≤ (i a).val ∧ (i a).val < win5_5.index t a * S256x10.size a + S256x10.size a := by
  show i ∈ ((View.whole main_v84).slice (win5_5.rect t)).set ↔ _
  rw [View.set_slice_whole, Rect.mem_set_unit]
  exact Iff.rfl

theorem cover (i : S256x10.Idx) :
    ∃ t : Fin cfg5.N, (cfg5.win 5).flush t = true ∧ i ∈ ((cfg5.win 5).blk t).view.set := by
  have hi0 : (i 0).val < 256 := (i 0).isLt
  have hi1 : (i 1).val < 10 := (i 1).isLt
  obtain ⟨-, -, -, -, -, -, -, -, -, -, e50, e51⟩ := index_maps t5_0
  refine ⟨t5_0, flush5_5 t5_0, ?_⟩
  rw [mem_block]
  intro a
  match a with
  | ⟨0, _⟩ => show win5_5.index t5_0 (0 : Fin 2) * 256 ≤ (i 0).val ∧ (i 0).val < win5_5.index t5_0 (0 : Fin 2) * 256 + 256; omega
  | ⟨1, _⟩ => show win5_5.index t5_0 (1 : Fin 2) * 10 ≤ (i 1).val ∧ (i 1).val < win5_5.index t5_0 (1 : Fin 2) * 10 + 10; omega

/-- The output array after the head region: the body's result on the arrays the region found. -/
theorem final (c : Dev nD) : (dat5 V c).arrAt 5 cfg5.N
    = k5_pay1 (F := Ideal) (V c main_v81) (V c main_arg19) (V c main_v82) (V c main_arg21) (V c main_v83) :=
  (dat5 V c).arrAt_eq_of_cover 5 _ (fun t _ => flushed_eq V c t) cover

end Cert.Bridge.Region5

end
-- ==== Proof.Head.lean ====
/-
  The classifier head at the ideal instance: two dense layers and a row-wise log-softmax.

  The head kernel runs at one grid point on whole arrays: hidden = max(pooled·W1 + b1, 0), logits = hidden·W2 + b2,
  and for each of the 256 rows, with M the maximum of the row's ten logits (folded from the reduction's neutral
  element), the result (logits - M) - log(Σ_j exp(logits_j - M)). At the ideal instance the narrowings to bf16
  are the identity, the matrix products exact sums, and the lane reductions a fold of max and a finite sum, so
  the stored array is `logSoftmax (logits ...)` index by index.
-/
import proofs.«133640_j8100308320579_2_alg».proof.Proof.Gen.KernelIdeal.Skeleton
import proofs.«133640_j8100308320579_2_alg».proof.Proof.DotSum
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen

/-! ## Column layouts read at a pair of coordinates -/

/-- An [a] array cast to [a, 1] reads, at (p, u), the operand at p. -/
theorem shapeCast_col {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, 1] column broadcast to [a, b] reads, at (p, c), the column at p. -/
theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The specification -/

/-- The maximum of a row of ten logits, folded from the reduction's neutral element (the word of -inf). -/
def rowMax (L : (⟨2, ![256, 10]⟩ : Shape).Idx → EReal) (p : Fin 256) : EReal :=
  (Finset.univ : Finset (Fin 10)).fold max (Ideal.ofBits .f32 0xFF800000#32) (fun j => L (ix2 p j))

/-- The row-wise log-softmax, shifted by the row's maximum. -/
def logSoftmax (L : (⟨2, ![256, 10]⟩ : Shape).Idx → EReal) : (⟨2, ![256, 10]⟩ : Shape).Idx → EReal :=
  fun i => (L i - rowMax L (i 0)) - Ideal.log (∑ j : Fin 10, Ideal.exp (L (ix2 (i 0) j) - rowMax L (i 0)))

/-- The hidden layer: max(pooled·W1 + b1, 0). -/
def hidden (a : (⟨2, ![256, 256]⟩ : Shape).Idx → EReal) (w1 : (⟨2, ![256, 256]⟩ : Shape).Idx → EReal)
    (b1 : (⟨2, ![1, 256]⟩ : Shape).Idx → EReal) : (⟨2, ![256, 256]⟩ : Shape).Idx → EReal :=
  fun i => max ((∑ k : Fin 256, a (ix2 (i 0) k) * w1 (ix2 k (i 1))) + b1 (ix2 (0 : Fin 1) (i 1))) 0

/-- The logits: hidden·W2 + b2. -/
def logits (a w1 : (⟨2, ![256, 256]⟩ : Shape).Idx → EReal) (b1 : (⟨2, ![1, 256]⟩ : Shape).Idx → EReal)
    (w2 : (⟨2, ![256, 10]⟩ : Shape).Idx → EReal) (b2 : (⟨2, ![1, 10]⟩ : Shape).Idx → EReal) : (⟨2, ![256, 10]⟩ : Shape).Idx → EReal :=
  fun i => (∑ k : Fin 256, hidden a w1 b1 (ix2 (i 0) k) * w2 (ix2 k (i 1))) + b2 (ix2 (0 : Fin 1) (i 1))

/-! ## The dimension numbers of the head's two products -/

abbrev dh1 : DotDims S256x256 S256x256 S256x256 := dot_S256x256_S256x256_S256x256_1_0_0_1_n_n
theorem dh1_rank : dh1.contr.rank = 1 := rfl
theorem dh1_size : dh1.contr.size ⟨0, by decide⟩ = 256 := rfl
theorem dh1_00 (j : S256x256.Idx) (q : dh1.contr.Idx) : (dh1.lhsIdx j q 0).val = (j 0).val := by
  unfold DotDims.lhsIdx
  rw [dif_neg (show ¬(0 : Fin S256x256.rank) ∈ dh1.lhsBatch by decide), dif_pos (show (0 : Fin S256x256.rank) ∈ dh1.lhsNonContracting by decide)]
  rfl
theorem dh1_01 (j : S256x256.Idx) (q : dh1.contr.Idx) : (dh1.lhsIdx j q 1).val = (q ⟨0, by decide⟩).val :=
  dh1.lhsIdx_val_of_single rfl j q
theorem dh1_10 (j : S256x256.Idx) (q : dh1.contr.Idx) : (dh1.rhsIdx j q 0).val = (q ⟨0, by decide⟩).val :=
  dh1.rhsIdx_val_of_single rfl j q
theorem dh1_11 (j : S256x256.Idx) (q : dh1.contr.Idx) : (dh1.rhsIdx j q 1).val = (j 1).val := by
  unfold DotDims.rhsIdx
  rw [dif_neg (show ¬(1 : Fin S256x256.rank) ∈ dh1.rhsBatch by decide), dif_pos (show (1 : Fin S256x256.rank) ∈ dh1.rhsNonContracting by decide)]
  rfl

abbrev dh2 : DotDims S256x256 S256x10 S256x10 := dot_S256x256_S256x10_S256x10_1_0_0_1_n_n
theorem dh2_rank : dh2.contr.rank = 1 := rfl
theorem dh2_size : dh2.contr.size ⟨0, by decide⟩ = 256 := rfl
theorem dh2_00 (j : S256x10.Idx) (q : dh2.contr.Idx) : (dh2.lhsIdx j q 0).val = (j 0).val := by
  unfold DotDims.lhsIdx
  rw [dif_neg (show ¬(0 : Fin S256x256.rank) ∈ dh2.lhsBatch by decide), dif_pos (show (0 : Fin S256x256.rank) ∈ dh2.lhsNonContracting by decide)]
  rfl
theorem dh2_01 (j : S256x10.Idx) (q : dh2.contr.Idx) : (dh2.lhsIdx j q 1).val = (q ⟨0, by decide⟩).val :=
  dh2.lhsIdx_val_of_single rfl j q
theorem dh2_10 (j : S256x10.Idx) (q : dh2.contr.Idx) : (dh2.rhsIdx j q 0).val = (q ⟨0, by decide⟩).val :=
  dh2.rhsIdx_val_of_single rfl j q
theorem dh2_11 (j : S256x10.Idx) (q : dh2.contr.Idx) : (dh2.rhsIdx j q 1).val = (j 1).val := by
  unfold DotDims.rhsIdx
  rw [dif_neg (show ¬(1 : Fin S256x10.rank) ∈ dh2.rhsBatch by decide), dif_pos (show (1 : Fin S256x10.rank) ∈ dh2.rhsNonContracting by decide)]
  rfl

/-! ## The kernel's tail: the shifted log-softmax of a logits array -/

/-- The kernel's operations after the logits, as a function of the logits array. -/
def tailK (L : FVec Ideal S256x10 .f32) : FVec Ideal S256x10 .f32 :=
  subf (subf L (broadcastTo S256x10 (shapeCast S256x1 (multiReduction .maximumf [1] S256 L 0xFF800000#32 reduces_S256x10_S256 (.inl rfl) rfl) shapeCasts_S256_S256x1) broadcasts_S256x1_S256x10))
    (broadcastTo S256x10 (log (shapeCast S256x1 (multiReduction .add [1] S256 (exp (subf L (broadcastTo S256x10 (shapeCast S256x1 (multiReduction .maximumf [1] S256 L 0xFF800000#32 reduces_S256x10_S256 (.inl rfl) rfl) shapeCasts_S256_S256x1) broadcasts_S256x1_S256x10))) 0x00000000#32 reduces_S256x10_S256 (.inl rfl) rfl) shapeCasts_S256_S256x1)) broadcasts_S256x1_S256x10)

theorem lift_row (p : Fin 256) (k : Fin 10) : reduces_S256x10_S256.lift (ix1 p) k = ix2 p k :=
  funext fun a => Fin.ext (by match a with | ⟨0, _⟩ => rfl | ⟨1, _⟩ => rfl)

theorem tailK_eq (L : FVec Ideal S256x10 .f32) : tailK L = logSoftmax L := by
  funext i
  obtain ⟨p, q, rfl⟩ : ∃ (p : Fin 256) (q : Fin 10), i = ix2 p q := ⟨i 0, i 1, eq_ix2 i⟩
  let Mv : FVec Ideal S256 .f32 := multiReduction .maximumf [1] S256 L 0xFF800000#32 reduces_S256x10_S256 (.inl rfl) rfl
  let sh : FVec Ideal S256x10 .f32 := subf L (broadcastTo S256x10 (shapeCast S256x1 Mv shapeCasts_S256_S256x1) broadcasts_S256x1_S256x10)
  let Sv : FVec Ideal S256 .f32 := multiReduction .add [1] S256 (exp sh) 0x00000000#32 reduces_S256x10_S256 (.inl rfl) rfl
  have hrow : (L ∘ reduces_S256x10_S256.lift (ix1 p)) = fun j : Fin 10 => L (ix2 p j) :=
    funext fun k => congrArg L (lift_row p k)
  have hM : Mv (ix1 p) = rowMax L p := by
    show multiReduction .maximumf [1] S256 L 0xFF800000#32 reduces_S256x10_S256 (.inl rfl) rfl (ix1 p) = _
    refine (Ideal.multiReduction_maximumf_single L 0xFF800000#32 reduces_S256x10_S256 (.inl rfl) rfl (ix1 p)).trans ?_
    rw [hrow]
    rfl
  have hsh : ∀ j : Fin 10, sh (ix2 p j) = L (ix2 p j) - rowMax L p := fun j => by
    show L (ix2 p j) - broadcastTo S256x10 (shapeCast S256x1 Mv shapeCasts_S256_S256x1) broadcasts_S256x1_S256x10 (ix2 p j) = _
    rw [broadcastTo_col, shapeCast_col, hM]
  have hS : Sv (ix1 p) = ∑ j : Fin 10, Ideal.exp (L (ix2 p j) - rowMax L p) := by
    show multiReduction .add [1] S256 (exp sh) 0x00000000#32 reduces_S256x10_S256 (.inl rfl) rfl (ix1 p) = _
    refine (Ideal.multiReduction_add_single (exp sh) 0x00000000#32 reduces_S256x10_S256 (.inl rfl) rfl (ix1 p)).trans ?_
    refine Finset.sum_congr rfl fun k _ => ?_
    show Ideal.exp (sh (reduces_S256x10_S256.lift (ix1 p) k)) = _
    exact congrArg Ideal.exp ((congrArg sh (lift_row p k)).trans (hsh k))
  show sh (ix2 p q) - broadcastTo S256x10 (log (shapeCast S256x1 Sv shapeCasts_S256_S256x1)) broadcasts_S256x1_S256x10 (ix2 p q) = _
  rw [broadcastTo_col]
  show sh (ix2 p q) - Ideal.log (shapeCast S256x1 Sv shapeCasts_S256_S256x1 (ix2 p (0 : Fin 1))) = _
  rw [shapeCast_col, hS, hsh q]
  rfl

/-! ## The kernel's two dense layers -/

/-- The kernel's hidden layer as an array expression. -/
def hiddenK (a w1 : Vec Ideal S256x256 .f32) (b1 : Vec Ideal S1x256 .f32) : FVec Ideal S256x256 .f32 :=
  maximumf (addf (matmul dh1 none (truncf .bf16 a bitsLt_bf16_f32) (truncf .bf16 w1 bitsLt_bf16_f32) (constant S256x256 .f32 0x00000000#32))
    (broadcastTo S256x256 b1 broadcasts_S1x256_S256x256)) (broadcast S256x256 (Scalar.ofBits .f32 0x00000000#32))

/-- The kernel's logits as an array expression. -/
def logitsK (a w1 : Vec Ideal S256x256 .f32) (b1 : Vec Ideal S1x256 .f32) (w2 : Vec Ideal S256x10 .f32) (b2 : Vec Ideal S1x10 .f32) :
    FVec Ideal S256x10 .f32 :=
  addf (matmul dh2 none (truncf .bf16 (hiddenK a w1 b1) bitsLt_bf16_f32) (truncf .bf16 w2 bitsLt_bf16_f32) (constant S256x10 .f32 0x00000000#32))
    (broadcastTo S256x10 b2 broadcasts_S1x10_S256x10)

theorem hiddenK_at (a w1 : Vec Ideal S256x256 .f32) (b1 : Vec Ideal S1x256 .f32) (p k : Fin 256) :
    hiddenK a w1 b1 (ix2 p k) = hidden a w1 b1 (ix2 p k) :=
  congrArg₂ max (congrArg₂ (· + ·)
    (matmul_zero_at dh1 dh1_rank dh1_size dh1_00 dh1_01 dh1_10 dh1_11 none (truncf .bf16 a bitsLt_bf16_f32) (truncf .bf16 w1 bitsLt_bf16_f32) p k)
    (broadcastTo_1b_ab_apply b1 broadcasts_S1x256_S256x256 p k)) Ideal.ofBits_zero_f32

theorem logitsK_eq (a w1 : Vec Ideal S256x256 .f32) (b1 : Vec Ideal S1x256 .f32) (w2 : Vec Ideal S256x10 .f32) (b2 : Vec Ideal S1x10 .f32) :
    logitsK a w1 b1 w2 b2 = logits a w1 b1 w2 b2 := by
  funext i
  obtain ⟨p, q, rfl⟩ : ∃ (p : Fin 256) (q : Fin 10), i = ix2 p q := ⟨i 0, i 1, eq_ix2 i⟩
  exact congrArg₂ (· + ·)
    ((matmul_zero_at dh2 dh2_rank dh2_size dh2_00 dh2_01 dh2_10 dh2_11 none (truncf .bf16 (hiddenK a w1 b1) bitsLt_bf16_f32) (truncf .bf16 w2 bitsLt_bf16_f32) p q).trans
      (Finset.sum_congr rfl fun k _ => congrArg (· * w2 (ix2 k q)) (hiddenK_at a w1 b1 p k)))
    (broadcastTo_1b_ab_apply b2 broadcasts_S1x10_S256x10 p q)

/-- The head's stored array: the log-softmax of the logits. -/
theorem head_eq (a w1 : Vec Ideal S256x256 .f32) (b1 : Vec Ideal S1x256 .f32) (w2 : Vec Ideal S256x10 .f32) (b2 : Vec Ideal S1x10 .f32) :
    k5_pay1 (F := Ideal) a w1 b1 w2 b2 = logSoftmax (logits a w1 b1 w2 b2) := by
  rw [← logitsK_eq, ← tailK_eq]
  unfold k5_pay1
  simp only [shapeCast_self]
  rfl

end Cert.Bridge

end
-- ==== Proof.RefHead.lean ====
/-
  The reference's classifier head is the log-softmax of the logits.

  The reference computes the head with the host's operations on whole arrays: two dot_generals with the biases
  broadcast down the rows and a maximum with zero between them, then jax's log_softmax — the row maximum by a
  reduce from -inf (and one more maximum with -inf, which changes nothing since the fold already starts there),
  the shifted logits, their exponentials summed along the row from zero, the logarithm, the difference. Index by
  index at the ideal instance this is `logSoftmax (logits ...)`, the function the kernel's head computes.
-/
import proofs.«133640_j8100308320579_2_alg».proof.Proof.Gen.ReferenceIdeal.Read
import proofs.«133640_j8100308320579_2_alg».proof.Proof.Head

noncomputable section

namespace Cert.Bridge

open Idealize.ShloMosaic Idealize.ShloMosaic.ValueIdx

/-- The reference's logits. -/
theorem ref_logits (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256x256, .f32⟩ : BufTy).Contents (Elt Ideal)) (x17 : (⟨Cert.ReferenceIdeal.S256, .f32⟩ : BufTy).Contents (Elt Ideal)) (x18 : (⟨Cert.ReferenceIdeal.S256x256, .f32⟩ : BufTy).Contents (Elt Ideal)) (x19 : (⟨Cert.ReferenceIdeal.S256x256, .f32⟩ : BufTy).Contents (Elt Ideal)) (x20 : (⟨Cert.ReferenceIdeal.S256, .f32⟩ : BufTy).Contents (Elt Ideal)) (x21 : (⟨Cert.ReferenceIdeal.S256x10, .f32⟩ : BufTy).Contents (Elt Ideal)) (x22 : (⟨Cert.ReferenceIdeal.S10, .f32⟩ : BufTy).Contents (Elt Ideal)) :
    Cert.ReferenceIdeal.Read.val_main_v115 (F := Ideal) x0 x1 x2 x3 x4 x5 x6 x7 x8 x9 x10 x11 x12 x13 x14 x15 x16 x17 x18 x19 x20 x21 x22
      = logits (Cert.ReferenceIdeal.Read.val_main_v106 (F := Ideal) x0 x1 x2 x3 x4 x5 x6 x7 x8 x9 x10 x11 x12 x13 x14 x15 x16 x17 x18) x19 (shapeCast Cert.KernelIdeal.S1x256 x20 Cert.KernelIdeal.Facts₀.shapeCasts_S256_S1x256) x21
          (shapeCast Cert.KernelIdeal.S1x10 x22 Cert.KernelIdeal.Facts₀.shapeCasts_S10_S1x10) := by
  funext i
  obtain ⟨p, q, rfl⟩ : ∃ (p : Fin 256) (q : Fin 10), i = ix2 p q := ⟨i 0, i 1, eq_ix2 i⟩
  have hh : ∀ k : Fin 256, Cert.ReferenceIdeal.Read.val_main_v111 (F := Ideal) x0 x1 x2 x3 x4 x5 x6 x7 x8 x9 x10 x11 x12 x13 x14 x15 x16 x17 x18 x19 x20 (ix2 p k)
      = hidden (Cert.ReferenceIdeal.Read.val_main_v106 (F := Ideal) x0 x1 x2 x3 x4 x5 x6 x7 x8 x9 x10 x11 x12 x13 x14 x15 x16 x17 x18) x19 (shapeCast Cert.KernelIdeal.S1x256 x20 Cert.KernelIdeal.Facts₀.shapeCasts_S256_S1x256) (ix2 p k) := fun k => by
    rw [Cert.ReferenceIdeal.Read.val_main_v111_apply, Cert.ReferenceIdeal.Read.val_main_v110_apply, Cert.ReferenceIdeal.Read.val_main_v107_apply, Cert.ReferenceIdeal.Read.val_main_v109_apply, Cert.ReferenceIdeal.Read.val_main_v108_apply,
      Cert.ReferenceIdeal.Read.val_main_call5_v0_apply, Cert.ReferenceIdeal.Read.val_main_call5_cst_apply]
    have hl1 : ∀ j : Fin 256, Cert.ReferenceIdeal.Read.lidx_main_v107 (ix2 p k) j = ix2 p j := fun j => funext fun a => Fin.ext (by
      match a with | ⟨0, _⟩ => rfl | ⟨1, _⟩ => rfl)
    have hr1 : ∀ j : Fin 256, Cert.ReferenceIdeal.Read.ridx_main_v107 (ix2 p k) j = ix2 j k := fun j => funext fun a => Fin.ext (by
      match a with | ⟨0, _⟩ => rfl | ⟨1, _⟩ => rfl)
    have hb1 : Cert.ReferenceIdeal.Read.idx_main_v108 (Cert.ReferenceIdeal.Read.idx_main_v109 (ix2 p k)) = ix1 k := funext fun a => Fin.ext (by
      match a with | ⟨0, _⟩ => rfl)
    simp only [hl1, hr1, hb1]
    exact congrArg₂ max (congrArg₂ (· + ·) rfl (shapeCast_a_1a_apply x20 Cert.KernelIdeal.Facts₀.shapeCasts_S256_S1x256 (0 : Fin 1) k).symm) Ideal.ofBits_zero_f32
  rw [Cert.ReferenceIdeal.Read.val_main_v115_apply, Cert.ReferenceIdeal.Read.val_main_v112_apply, Cert.ReferenceIdeal.Read.val_main_v114_apply, Cert.ReferenceIdeal.Read.val_main_v113_apply]
  have hl : ∀ k : Fin 256, Cert.ReferenceIdeal.Read.lidx_main_v112 (ix2 p q) k = ix2 p k := fun k => funext fun a => Fin.ext (by
    match a with | ⟨0, _⟩ => rfl | ⟨1, _⟩ => rfl)
  have hr : ∀ k : Fin 256, Cert.ReferenceIdeal.Read.ridx_main_v112 (ix2 p q) k = ix2 k q := fun k => funext fun a => Fin.ext (by
    match a with | ⟨0, _⟩ => rfl | ⟨1, _⟩ => rfl)
  have hb : Cert.ReferenceIdeal.Read.idx_main_v113 (Cert.ReferenceIdeal.Read.idx_main_v114 (ix2 p q)) = ix1 q := funext fun a => Fin.ext (by
    match a with | ⟨0, _⟩ => rfl)
  simp only [hl, hr, hb]
  exact congrArg₂ (· + ·) (Finset.sum_congr rfl fun k _ => congrArg (· * x21 (ix2 k q)) (hh k))
    (shapeCast_a_1a_apply x22 Cert.KernelIdeal.Facts₀.shapeCasts_S10_S1x10 (0 : Fin 1) q).symm

/-- jax's log_softmax on the host, at the ideal instance, is `logSoftmax`. -/
theorem ref_tail (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S800000, .f32⟩ : BufTy).Contents (Elt Ideal)) (x4 : (⟨Cert.ReferenceIdeal.S128x256, .f32⟩ : BufTy).Contents (Elt Ideal)) (x5 : (⟨Cert.ReferenceIdeal.S256, .f32⟩ : BufTy).Contents (Elt Ideal)) (x6 : (⟨Cert.ReferenceIdeal.S128x256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256x256, .f32⟩ : BufTy).Contents (Elt Ideal)) (x17 : (⟨Cert.ReferenceIdeal.S256, .f32⟩ : BufTy).Contents (Elt Ideal)) (x18 : (⟨Cert.ReferenceIdeal.S256x256, .f32⟩ : BufTy).Contents (Elt Ideal)) (x19 : (⟨Cert.ReferenceIdeal.S256x256, .f32⟩ : BufTy).Contents (Elt Ideal)) (x20 : (⟨Cert.ReferenceIdeal.S256, .f32⟩ : BufTy).Contents (Elt Ideal)) (x21 : (⟨Cert.ReferenceIdeal.S256x10, .f32⟩ : BufTy).Contents (Elt Ideal)) (x22 : (⟨Cert.ReferenceIdeal.S10, .f32⟩ : BufTy).Contents (Elt Ideal)) :
    Cert.ReferenceIdeal.Read.val_main_v116 (F := Ideal) x0 x1 x2 x3 x4 x5 x6 x7 x8 x9 x10 x11 x12 x13 x14 x15 x16 x17 x18 x19 x20 x21 x22 = logSoftmax (Cert.ReferenceIdeal.Read.val_main_v115 (F := Ideal) x0 x1 x2 x3 x4 x5 x6 x7 x8 x9 x10 x11 x12 x13 x14 x15 x16 x17 x18 x19 x20 x21 x22) := by
  have hM : ∀ p : Fin 256, Cert.ReferenceIdeal.Read.val_main_call6_v2 (F := Ideal) x0 x1 x2 x3 x4 x5 x6 x7 x8 x9 x10 x11 x12 x13 x14 x15 x16 x17 x18 x19 x20 x21 x22 (ix1 p)
      = rowMax (Cert.ReferenceIdeal.Read.val_main_v115 (F := Ideal) x0 x1 x2 x3 x4 x5 x6 x7 x8 x9 x10 x11 x12 x13 x14 x15 x16 x17 x18 x19 x20 x21 x22) p := fun p => by
    rw [Cert.ReferenceIdeal.Read.val_main_call6_v2_apply, Cert.ReferenceIdeal.Read.val_main_call6_v1_apply, Cert.ReferenceIdeal.Read.val_main_call6_cst_0_apply]
    unfold Cert.ReferenceIdeal.Read.val_main_call6_v0
    generalize Cert.ReferenceIdeal.Read.val_main_v115 (F := Ideal) x0 x1 x2 x3 x4 x5 x6 x7 x8 x9 x10 x11 x12 x13 x14 x15 x16 x17 x18 x19 x20 x21 x22 = L
    have hfold := Host.reduce_eq_fold_single (FloatOps.maximumf (F := Ideal) (φ := .f32)) L (Cert.ReferenceIdeal.Read.val_main_call6_cst (F := Ideal))
      Cert.ReferenceIdeal.Gen.reducesTo_S256x10_S256_d1 Cert.KernelIdeal.Facts₀.reduces_S256x10_S256 Cert.ReferenceIdeal.Gen.h_S_ (ix1 p)
    rw [hfold, Cert.ReferenceIdeal.Read.val_main_call6_cst_apply]
    have hrow : (L ∘ Cert.KernelIdeal.Facts₀.reduces_S256x10_S256.lift (ix1 p)) = fun j : Fin 10 => L (ix2 p j) :=
      funext fun k => congrArg L (lift_row p k)
    rw [hrow]
    show max (Ideal.ofBits .f32 0xFF800000#32) (Finset.fold max (Ideal.ofBits .f32 0xFF800000#32) (fun j : Fin 10 => L (ix2 p j)) Finset.univ)
      = Finset.fold max (Ideal.ofBits .f32 0xFF800000#32) (fun j : Fin 10 => L (ix2 p j)) Finset.univ
    exact max_eq_right ((Finset.le_fold_max _).mpr (Or.inl le_rfl))
  funext i
  obtain ⟨p, q, rfl⟩ : ∃ (p : Fin 256) (q : Fin 10), i = ix2 p q := ⟨i 0, i 1, eq_ix2 i⟩
  have hv4 : ∀ j : Fin 10, Cert.ReferenceIdeal.Read.val_main_call6_v4 (F := Ideal) x0 x1 x2 x3 x4 x5 x6 x7 x8 x9 x10 x11 x12 x13 x14 x15 x16 x17 x18 x19 x20 x21 x22 (ix2 p j)
      = rowMax (Cert.ReferenceIdeal.Read.val_main_v115 (F := Ideal) x0 x1 x2 x3 x4 x5 x6 x7 x8 x9 x10 x11 x12 x13 x14 x15 x16 x17 x18 x19 x20 x21 x22) p := fun j => by
    rw [Cert.ReferenceIdeal.Read.val_main_call6_v4_apply, Cert.ReferenceIdeal.Read.val_main_call6_v3_apply]
    have hi : Cert.ReferenceIdeal.Read.idx_main_call6_v3 (Cert.ReferenceIdeal.Read.idx_main_call6_v4 (ix2 p j)) = ix1 p := funext fun a => Fin.ext (by
      match a with | ⟨0, _⟩ => rfl)
    rw [hi, hM p]
  have hv5 : ∀ j : Fin 10, Cert.ReferenceIdeal.Read.val_main_call6_v5 (F := Ideal) x0 x1 x2 x3 x4 x5 x6 x7 x8 x9 x10 x11 x12 x13 x14 x15 x16 x17 x18 x19 x20 x21 x22 (ix2 p j)
      = Cert.ReferenceIdeal.Read.val_main_v115 (F := Ideal) x0 x1 x2 x3 x4 x5 x6 x7 x8 x9 x10 x11 x12 x13 x14 x15 x16 x17 x18 x19 x20 x21 x22 (ix2 p j) - rowMax (Cert.ReferenceIdeal.Read.val_main_v115 (F := Ideal) x0 x1 x2 x3 x4 x5 x6 x7 x8 x9 x10 x11 x12 x13 x14 x15 x16 x17 x18 x19 x20 x21 x22) p := fun j => by
    rw [Cert.ReferenceIdeal.Read.val_main_call6_v5_apply, hv4 j]
    rfl
  rw [Cert.ReferenceIdeal.Read.val_main_v116_apply, Cert.ReferenceIdeal.Read.val_main_call6_v10_apply, Cert.ReferenceIdeal.Read.val_main_call6_v9_apply, Cert.ReferenceIdeal.Read.val_main_call6_v8_apply,
    Cert.ReferenceIdeal.Read.val_main_call6_v7_apply, Cert.ReferenceIdeal.Read.val_main_call6_cst_1_apply]
  have hi8 : Cert.ReferenceIdeal.Read.idx_main_call6_v8 (Cert.ReferenceIdeal.Read.idx_main_call6_v10 (ix2 p q)) = ix1 p := funext fun a => Fin.ext (by
    match a with | ⟨0, _⟩ => rfl)
  have hi7 : ∀ k : Fin 10, Cert.ReferenceIdeal.Read.idx_main_call6_v7 (ix1 p) k = ix2 p k := fun k => funext fun a => Fin.ext (by
    match a with | ⟨0, _⟩ => rfl | ⟨1, _⟩ => rfl)
  simp only [hi8, hi7]
  rw [hv5 q]
  simp only [Ideal.subf_def, Ideal.hostUnary_log_def, Ideal.ofBits_def]
  have hsum : (Ideal.ofBits .f32 0x00000000#32 : EReal) + ∑ k : Fin 10, Cert.ReferenceIdeal.Read.val_main_call6_v6 (F := Ideal) x0 x1 x2 x3 x4 x5 x6 x7 x8 x9 x10 x11 x12 x13 x14 x15 x16 x17 x18 x19 x20 x21 x22 (ix2 p k)
      = ∑ j : Fin 10, Ideal.exp (Cert.ReferenceIdeal.Read.val_main_v115 (F := Ideal) x0 x1 x2 x3 x4 x5 x6 x7 x8 x9 x10 x11 x12 x13 x14 x15 x16 x17 x18 x19 x20 x21 x22 (ix2 p j) - rowMax (Cert.ReferenceIdeal.Read.val_main_v115 (F := Ideal) x0 x1 x2 x3 x4 x5 x6 x7 x8 x9 x10 x11 x12 x13 x14 x15 x16 x17 x18 x19 x20 x21 x22) p) := by
    rw [Ideal.ofBits_zero_f32, zero_add]
    refine Finset.sum_congr rfl fun k _ => ?_
    rw [Cert.ReferenceIdeal.Read.val_main_call6_v6_apply, Ideal.hostUnary_exp_def, hv5 k]
  generalize Cert.ReferenceIdeal.Read.val_main_v115 (F := Ideal) x0 x1 x2 x3 x4 x5 x6 x7 x8 x9 x10 x11 x12 x13 x14 x15 x16 x17 x18 x19 x20 x21 x22 = L at hsum ⊢
  rw [hsum]
  rfl

end Cert.Bridge

end
-- ==== Proof.HeadStep.lean ====
/-
  The kernel's classifier head, read through the fold: the result buffer of the kernel program.

  After the fifth layer the last stretch of host operations scatter-adds the node features into the 256 graphs of
  the batch vector (the reference's own pooling, on the same buffers) and reshapes the two head biases to rows;
  the head region then stores the log-softmax of the logits. So the result buffer holds, as a function of the
  launch contents of the arguments, what the reference's result holds.
-/
import proofs.«133640_j8100308320579_2_alg».proof.Proof.Layers
import proofs.«133640_j8100308320579_2_alg».proof.Proof.Region5
import proofs.«133640_j8100308320579_2_alg».proof.Proof.Head
import proofs.«133640_j8100308320579_2_alg».proof.Proof.RefHead

noncomputable section

namespace Cert.KernelIdeal.Whole

open Cert.KernelIdeal Cert.KernelIdeal.Gen Cert.Bridge
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 1600000 in
/-- The pooled node features the head region finds are the reference's. -/
theorem entry_pooled (c : Dev nD) : V11 m ρ c main_v81 = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps5 (W10 m ρ c) (Proc.devRef .tc main_v81) = _
  after_results_simp
  rw [at10_arg2 m ρ c, kernel_layer5 m ρ c]
  unfold Cert.ReferenceIdeal.Read.val_main_v106 Cert.ReferenceIdeal.Read.val_main_v105 Cert.ReferenceIdeal.Read.val_main_v104 Cert.ReferenceIdeal.Read.val_main_cst_13
  rfl

theorem entry_b1 (c : Dev nD) : V11 m ρ c main_v82 = shapeCast S1x256 (m ((c : Thread nD τ).loc main_arg20)) shapeCasts_S256_S1x256 := by
  show StableHlo.after hostOps5 (W10 m ρ c) (Proc.devRef .tc main_v82) = _
  after_results_simp
  rw [at10_arg20 m ρ c]
  rfl

theorem entry_b2 (c : Dev nD) : V11 m ρ c main_v83 = shapeCast S1x10 (m ((c : Thread nD τ).loc main_arg22)) shapeCasts_S10_S1x10 := by
  show StableHlo.after hostOps5 (W10 m ρ c) (Proc.devRef .tc main_v83) = _
  after_results_simp
  rw [at10_arg22 m ρ c]
  rfl

/-- The kernel program's result buffer after the run is the reference's result, as a function of the arguments. -/
theorem kernel_out (c : Dev nD) : W12 m ρ c (Proc.devRef .tc main_v84)
    = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine ((W12_arr m ρ c 5).trans (Region5.final (V11 m ρ) c)).trans ?_
  have eW1 : V11 m ρ c main_arg19 = (m ((c : Thread nD τ).loc main_arg19)) := at11_arg19 m ρ c
  have eW2 : V11 m ρ c main_arg21 = (m ((c : Thread nD τ).loc main_arg21)) := at11_arg21 m ρ c
  rw [entry_pooled m ρ c, eW1, entry_b1 m ρ c, eW2, entry_b2 m ρ c, head_eq, ref_tail, ref_logits]

end Cert.KernelIdeal.Whole

end
-- ==== Proof.lean ====
/-
  A five-layer graph-convolution network with a sum-pooling classifier head: the Pallas kernel program equals its
  jnp reference at the ideal instance.

  Both programs run, for each of five layers, aggregated = scatter-add over the edges of (node features gathered at
  the edge's source, times the edge weight) into the edge's destination, then
  node features' = max(aggregated·W_rel + node features·W_root + bias, 0); they pool the node features of each
  graph by a scatter-add over the batch vector and finish with relu(pooled·W1 + b1)·W2 + b2 under a row-wise
  log-softmax. The kernel program keeps the gathers and scatter-adds as the reference's own host operations and
  runs each layer's dense part, and the head, as a pallas_call region; the reference runs everything on the host.

  At the ideal instance a region's row blocks tile its output, the matrix unit's products are exact sums equal to
  the host's dot_general, the narrowings to bf16 are the identity, and the bias may be added before or after the
  second product because addition of extended reals is commutative and associative. No step uses that the inputs
  are finite. The frames are the generated ones; the reference's frame is its generated run with the result
  dropped; the idealization rewrote nothing, so there is nothing to preserve.
-/
import proofs.«133640_j8100308320579_2_alg».proof.Defs
import proofs.«133640_j8100308320579_2_alg».proof.Proof.Gen.Kernel
import proofs.«133640_j8100308320579_2_alg».proof.Proof.Gen.Kernel.Skeleton
import proofs.«133640_j8100308320579_2_alg».proof.Proof.Gen.Kernel.Launch
import proofs.«133640_j8100308320579_2_alg».proof.Proof.Gen.Kernel.Points
import proofs.«133640_j8100308320579_2_alg».proof.Proof.Gen.Kernel.Frame
import proofs.«133640_j8100308320579_2_alg».proof.Proof.Gen.KernelIdeal
import proofs.«133640_j8100308320579_2_alg».proof.Proof.Gen.KernelIdeal.Skeleton
import proofs.«133640_j8100308320579_2_alg».proof.Proof.Gen.KernelIdeal.Launch
import proofs.«133640_j8100308320579_2_alg».proof.Proof.Gen.KernelIdeal.Points
import proofs.«133640_j8100308320579_2_alg».proof.Proof.Gen.KernelIdeal.Frame
import proofs.«133640_j8100308320579_2_alg».proof.Proof.Gen.ReferenceIdeal
import proofs.«133640_j8100308320579_2_alg».proof.Proof.Gen.ReferenceIdeal.Run
import proofs.«133640_j8100308320579_2_alg».proof.Proof.Gen.ReferenceIdeal.Read
import proofs.«133640_j8100308320579_2_alg».proof.Proof.Gen.Pre_finite_inputs
import proofs.«133640_j8100308320579_2_alg».proof.Proof.KernelRun
import proofs.«133640_j8100308320579_2_alg».proof.Proof.HeadStep
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

set_option maxHeartbeats 4000000 in
/-- Both idealized programs end with the result at the reference's function of the arguments: the kernel program by
    the fold through its twelve segments, the reference by its generated run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · refine (θ_run Cert.KernelIdeal.defs _ _).mono (fun r h c => ⟨?_, (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c),
      (h c _ (Cert.KernelIdeal.Gen.mem_uc Cert.KernelIdeal.main_arg8 (by decide))).trans (Cert.KernelIdeal.Gen.W12_main_arg8 m ρ c),
      (h c _ (Cert.KernelIdeal.Gen.mem_uc Cert.KernelIdeal.main_arg9 (by decide))).trans (Cert.KernelIdeal.Gen.W12_main_arg9 m ρ c),
      (h c _ (Cert.KernelIdeal.Gen.mem_uc Cert.KernelIdeal.main_arg10 (by decide))).trans (Cert.KernelIdeal.Gen.W12_main_arg10 m ρ c),
      (h c _ (Cert.KernelIdeal.Gen.mem_uc Cert.KernelIdeal.main_arg11 (by decide))).trans (Cert.KernelIdeal.Gen.W12_main_arg11 m ρ c),
      (h c _ (Cert.KernelIdeal.Gen.mem_uc Cert.KernelIdeal.main_arg12 (by decide))).trans (Cert.KernelIdeal.Gen.W12_main_arg12 m ρ c),
      (h c _ (Cert.KernelIdeal.Gen.mem_uc Cert.KernelIdeal.main_arg13 (by decide))).trans (Cert.KernelIdeal.Gen.W12_main_arg13 m ρ c),
      (h c _ (Cert.KernelIdeal.Gen.mem_uc Cert.KernelIdeal.main_arg14 (by decide))).trans (Cert.KernelIdeal.Gen.W12_main_arg14 m ρ c),
      (h c _ (Cert.KernelIdeal.Gen.mem_uc Cert.KernelIdeal.main_arg15 (by decide))).trans (Cert.KernelIdeal.Gen.W12_main_arg15 m ρ c),
      (h c _ (Cert.KernelIdeal.Gen.mem_uc Cert.KernelIdeal.main_arg16 (by decide))).trans (Cert.KernelIdeal.Gen.W12_main_arg16 m ρ c),
      (h c _ (Cert.KernelIdeal.Gen.mem_uc Cert.KernelIdeal.main_arg17 (by decide))).trans (Cert.KernelIdeal.Gen.W12_main_arg17 m ρ c),
      (h c _ (Cert.KernelIdeal.Gen.mem_uc Cert.KernelIdeal.main_arg18 (by decide))).trans (Cert.KernelIdeal.Gen.W12_main_arg18 m ρ c),
      (h c _ (Cert.KernelIdeal.Gen.mem_uc Cert.KernelIdeal.main_arg19 (by decide))).trans (Cert.KernelIdeal.Gen.W12_main_arg19 m ρ c),
      (h c _ (Cert.KernelIdeal.Gen.mem_uc Cert.KernelIdeal.main_arg20 (by decide))).trans (Cert.KernelIdeal.Gen.W12_main_arg20 m ρ c),
      (h c _ (Cert.KernelIdeal.Gen.mem_uc Cert.KernelIdeal.main_arg21 (by decide))).trans (Cert.KernelIdeal.Gen.W12_main_arg21 m ρ c),
      (h c _ (Cert.KernelIdeal.Gen.mem_uc Cert.KernelIdeal.main_arg22 (by decide))).trans (Cert.KernelIdeal.Gen.W12_main_arg22 m ρ c)⟩)
      (Cert.KernelIdeal.Whole.run_all m ρ)
    exact (h c _ (Cert.KernelIdeal.Gen.mem_uc Cert.KernelIdeal.main_v84 (by decide))).trans (Cert.KernelIdeal.Whole.kernel_out m ρ c)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21, a22⟩ := hagree c
    rw [Cert.ReferenceIdeal.Read.val_main_v116_eq m' c, a0, a1, a2, a3, a4, a5, a6, a7, a8, a9, a10, a11, a12, a13, a14, a15, a16, a17, a18, a19, a20, a21, a22]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
